-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S4096 : Shape := ⟨1, ![4096]⟩
abbrev S2048x256 : Shape := ⟨2, ![2048, 256]⟩
abbrev S1024x256 : Shape := ⟨2, ![1024, 256]⟩
abbrev S2048x1 : Shape := ⟨2, ![2048, 1]⟩
abbrev S2048x128 : Shape := ⟨2, ![2048, 128]⟩
abbrev S2048x1024 : Shape := ⟨2, ![2048, 1024]⟩
abbrev S2048x8x128 : Shape := ⟨3, ![2048, 8, 128]⟩
abbrev S2048 : Shape := ⟨1, ![2048]⟩

abbrev nBuf : Space → Nat
  | .hbm => 41
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S8192x256, .bf16⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S8192, .f32⟩
  | .hbm, ⟨33, _⟩ => ⟨S8192x1, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S2048x1, .f32⟩
  | .local _ .vmem, ⟨5, _⟩ => ⟨S2048x1, .f32⟩
  | .local _ .vmem, ⟨6, _⟩ => ⟨S2048x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_11 : BitVec 32 := 0#32
  let v31 : BitVec 1 := Scalar.cmpi .ne v30 c0_i32_11
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  bcast_S_S4096 : S_.BroadcastsInDim S4096 (![] : Fin 0 → Fin S4096.rank)
  concatenates_S4096_S4096_S8192_d0 : Shape.Concatenates [S4096, S4096] S8192 0
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S2048x1024_d0_w32 : S2048x1024.Iotas .tc 32 [0]
  iota_S2048x1024_d1_w32 : S2048x1024.Iotas .tc 32 [1]
  shapeCasts_S2048x1024_S2048x8x128 : S2048x1024.ShapeCasts S2048x8x128
  reduces_S2048x8x128_S2048x128 : S2048x8x128.Reduces [1] S2048x128
  reduces_S2048x128_S2048 : S2048x128.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S8192x1_S8192 : S8192x1.ShapeCasts S8192
  reducesTo_S8192_S_d0 : S8192.ReducesTo [0] S_
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v17) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 94
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S4096x1, .i32⟩
  | .hbm, ⟨48, _⟩ => ⟨S4096x2, .i32⟩
  | .hbm, ⟨49, _⟩ => ⟨S4096, .f32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S4096x1, .i32⟩
  | .hbm, ⟨70, _⟩ => ⟨S4096x1, .i32⟩
  | .hbm, ⟨71, _⟩ => ⟨S4096x2, .i32⟩
  | .hbm, ⟨72, _⟩ => ⟨S4096, .f32⟩
  | .hbm, ⟨73, _⟩ => ⟨S8192, .f32⟩
  | .hbm, ⟨74, _⟩ => ⟨S8192x8192, .i32⟩
  | .hbm, ⟨75, _⟩ => ⟨S8192x8192, .i32⟩
  | .hbm, ⟨76, _⟩ => ⟨S_, .i32⟩
  | .hbm, ⟨77, _⟩ => ⟨S8192x8192, .i32⟩
  | .hbm, ⟨78, _⟩ => ⟨S8192x8192, .i32⟩
  | .hbm, ⟨79, _⟩ => ⟨S8192x8192, .i1⟩
  | .hbm, ⟨80, _⟩ => ⟨S8192x8192, .f32⟩
  | .hbm, ⟨81, _⟩ => ⟨S_, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S8192, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_call2_v0 : Ref sig .tc := ⟨.hbm, 27, rfl⟩
abbrev main_call2_v1 : Ref sig .tc := ⟨.hbm, 28, rfl⟩
abbrev main_call2_c : Ref sig .tc := ⟨.hbm, 29, rfl⟩
abbrev main_call2_v2 : Ref sig .tc := ⟨.hbm, 30, rfl⟩
abbrev main_call2_v3 : Ref sig .tc := ⟨.hbm, 31, rfl⟩
abbrev main_call2_c_0 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_c_2 : Ref sig .tc := ⟨.hbm, 39, rfl⟩
abbrev main_call2_v9 : Ref sig .tc := ⟨.hbm, 40, rfl⟩
abbrev main_call2_v10 : Ref sig .tc := ⟨.hbm, 41, rfl⟩
abbrev main_call2_c_3 : Ref sig .tc := ⟨.hbm, 42, rfl⟩
abbrev main_call2_v11 : Ref sig .tc := ⟨.hbm, 43, rfl⟩
abbrev main_call2_v12 : Ref sig .tc := ⟨.hbm, 44, rfl⟩
abbrev main_call2_v13 : Ref sig .tc := ⟨.hbm, 45, rfl⟩
abbrev main_call2_v14 : Ref sig .tc := ⟨.hbm, 46, rfl⟩
abbrev main_call2_v15 : Ref sig .tc := ⟨.hbm, 47, rfl⟩
abbrev main_call2_v16 : Ref sig .tc := ⟨.hbm, 48, rfl⟩
abbrev main_v14 : Ref sig .tc := ⟨.hbm, 49, rfl⟩
abbrev main_call3_v0 : Ref sig .tc := ⟨.hbm, 50, rfl⟩
abbrev main_call3_v1 : Ref sig .tc := ⟨.hbm, 51, rfl⟩
abbrev main_call3_c : Ref sig .tc := ⟨.hbm, 52, rfl⟩
abbrev main_call3_v2 : Ref sig .tc := ⟨.hbm, 53, rfl⟩
abbrev main_call3_v3 : Ref sig .tc := ⟨.hbm, 54, rfl⟩
abbrev main_call3_c_0 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_c_2 : Ref sig .tc := ⟨.hbm, 62, rfl⟩
abbrev main_call3_v9 : Ref sig .tc := ⟨.hbm, 63, rfl⟩
abbrev main_call3_v10 : Ref sig .tc := ⟨.hbm, 64, rfl⟩
abbrev main_call3_c_3 : Ref sig .tc := ⟨.hbm, 65, rfl⟩
abbrev main_call3_v11 : Ref sig .tc := ⟨.hbm, 66, rfl⟩
abbrev main_call3_v12 : Ref sig .tc := ⟨.hbm, 67, rfl⟩
abbrev main_call3_v13 : Ref sig .tc := ⟨.hbm, 68, rfl⟩
abbrev main_call3_v14 : Ref sig .tc := ⟨.hbm, 69, rfl⟩
abbrev main_call3_v15 : Ref sig .tc := ⟨.hbm, 70, rfl⟩
abbrev main_call3_v16 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_c : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_cst_2 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_cst_3 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_cst_4 : Ref sig .tc := ⟨.hbm, 90, rfl⟩
abbrev main_v30 : Ref sig .tc := ⟨.hbm, 91, rfl⟩
abbrev main_cst_5 : Ref sig .tc := ⟨.hbm, 92, rfl⟩
abbrev main_v31 : Ref sig .tc := ⟨.hbm, 93, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  reducesTo_S8192x8192_S8192_d1 : S8192x8192.ReducesTo [1] S8192
  reducesTo_S8192_S_d0 : S8192.ReducesTo [0] S_
  dot_S8192x256_S8192x256_S8192x8192_1_1_0_0_n_n_wf : DotDims.WF S8192x256 S8192x256 S8192x8192 [1] [1] [0] [0] [] []
  gather_S8192x8192_S4096x2_S4096_n_01_n_n_01_1_11_wf : GatherDims.WF S8192x8192 S4096x2 S4096 [] [0, 1] [] [0, 1] [] 1 ![1, 1]

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.Easy.lean ====
/-
  The conjuncts that need no kernel run.

  The reference is a host program with no kernel launch: its run is the composition of its StableHLO operations,
  so every weakly fair execution ends, nothing faults, and the two argument arrays are never written — the frame is
  the run with the result's value dropped.

  The kernel's idealization names one constant.  The kernel body multiplies the Gram matrix by the f32 literal
  0x41649249, the rounding of 1 / TEMPERATURE; the reference divides the same Gram matrix by f32(TEMPERATURE) =
  0x3D8F5C29 = 9395241 / 2^27.  Read at its binary value the literal is not the reciprocal of that divisor
  (their product is 1 - 5.3e-9), so it is read as the exact reciprocal 2^27 / 9395241, whose f32 rounding is the
  literal bit for bit.  `preserves` is that one ledger entry's statement.
-/
import proofs.«158876_j63264868270602_2_alg».proof.Defs
import proofs.«158876_j63264868270602_2_alg».proof.Proof.Gen.ReferenceIdeal.Run

noncomputable section

namespace Cert.Proof.Easy

open Idealize.ShloMosaic Idealize.SL.Sem

/-- The reference runs to the end, faults nowhere and leaves both arguments as it found them. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The named reciprocal of the temperature is, at the ideal instance, the rational 2^27 / 9395241. -/
theorem preserves : Cert.preserves_Kernel_KernelIdeal :=
  IdealRules.named_const.statement Cert.KernelIdeal.κ "inv_temperature" .f32 0x41649249#32
    ((134217728 / 9395241 : ℝ) : EReal) rfl

end Cert.Proof.Easy

end
-- ==== Proof.K.Setup.lean ====
/-
  The kernel's region, before any run: what the region is entered with, the blocks its three windows
  stage, the two conditions its body branches on (decided over the 32 grid points), and the memrefs it is called
  with.  The grid is 4 row tiles by 8 column tiles of the 8192 x 8192 similarity matrix, which is never stored:
  each point adds its 2048 x 1024 tile's masked exponentials, folded to 128 lanes, into an accumulator.
-/
import proofs.«158876_j63264868270602_2_alg».proof.Proof.Gen.Kernel.Launch
import proofs.«158876_j63264868270602_2_alg».proof.Proof.Gen.Kernel.Skeleton
import proofs.«158876_j63264868270602_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with

Thirty-one host operations run before the region: the two arguments stacked, each row divided by its norm twice,
the result narrowed, and the positive-pair term. `V0` is every buffer after them. -/

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the operations before the region, the region, the seven operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The blocks

Window 0 is the row tile (2048 rows of the normalized matrix, indexed by the first grid coordinate), window 1 the
column tile (1024 rows of the SAME matrix, indexed by the second), window 2 the 2048 row sums. -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile's buffer holds its block at every point: it is fetched when the first coordinate moves, and in
    between the body leaves it alone. -/
theorem rowTile_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column tile's buffer holds its block at every point. -/
theorem colTile_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body

The body zeroes its accumulator when the column-tile coordinate is 0 and writes the row sums out when it is 7.
With the grid 4 × 8 read row-major, the point number modulo 8 is that coordinate. -/

abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The input windows are never idle; -/
theorem live0 : ∀ t : Fin cfg0.N, cfg0.idle 0 (grid0.coords t) = false := by decide +kernel
theorem live1 : ∀ t : Fin cfg0.N, cfg0.idle 1 (grid0.coords t) = false := by decide +kernel
/-- the row sums are stored, and written back, only at the last column tile. -/
theorem idle2 : ∀ t : Fin cfg0.N, ¬isLast (grid0.coords t) → cfg0.idle 2 (grid0.coords t) = true := by decide +kernel
theorem noFlush2 : ∀ t : Fin cfg0.N, ¬isLast (grid0.coords t) → (cfg0.win 2).flush t = false := by decide +kernel
theorem live2 : ∀ t : Fin cfg0.N, isLast (grid0.coords t) → cfg0.idle 2 (grid0.coords t) = false := by decide +kernel

/-! ## The memrefs the body is called with -/

abbrev rowM (t : Fin cfg0.N) : Memref sig .tc .vmem S2048x256 .bf16 := win0_0.stage (cfg0.slots t 0)
abbrev rowM_whole (t : Fin cfg0.N) : (rowM t).IsWhole := hstage0_0 ((cfg0.slots t 0).cast nbuf0_0)
abbrev colM (t : Fin cfg0.N) : Memref sig .tc .vmem S1024x256 .bf16 := win0_1.stage (cfg0.slots t 1)
abbrev colM_whole (t : Fin cfg0.N) : (colM t).IsWhole := hstage0_1 ((cfg0.slots t 1).cast nbuf0_1)
abbrev outM (t : Fin cfg0.N) : Memref sig .tc .vmem S2048x1 .f32 := win0_2.stage (cfg0.slots t 2)
abbrev outM_whole (t : Fin cfg0.N) : (outM t).IsWhole := hstage0_2 ((cfg0.slots t 2).cast nbuf0_2)
/-- The accumulator: 2048 rows of 128 lane-wise partial sums, kept from one column tile to the next. -/
abbrev accM : Memref sig .tc .vmem S2048x128 .f32 := Memref.whole cc0_scratch0
abbrev accV : View sig .tc .vmem S2048x128 .f32 := accM.view
abbrev outV : View sig .tc .vmem S2048x1 .f32 := (Memref.whole cc0_stg2_0 : Memref sig .tc .vmem S2048x1 .f32).view

/-- The only scoped buffer that is no staging buffer is the accumulator. -/
theorem scoped_eq (c : Dev nD) :
    (Pipeline.scopedRest spec0 c : sProp 𝕄) = iprop(∃ d, owns (c : Thread nD τ) accM fullShare d) := by
  rw [scopedRest0_eq]; simp only [accM, owns_whole]; try rfl

end Cert.Kernel.Rows

end
-- ==== Proof.K.RunFirst.lean ====
/-
  The body of the kernel, as printed, run symbolically at a point whose column-tile coordinate is 0.
-/
import proofs.«158876_j63264868270602_2_alg».proof.Proof.K.Setup

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- THE FIRST COLUMN TILE of a row tile (column coordinate 0).  On whole memrefs — the row tile at `x0`, the column tile at
    `x1`, the row sums at `xi2` (not touched here), the accumulator at anything — the body runs to its end with the tiles
    and the row sums as they were and the accumulator holding the pieces `LS` it stored: zeros first, then this tile's
    lane-folded sums added to them. -/
noncomputable def runFirst (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : isFirst i) (hc1 : ¬isLast i)
    (x0 : Vec F S2048x256 .bf16) (x1 : Vec F S1024x256 .bf16) :
    Σ' (L2 : List (View.Piece (Elt F) S2048x1 .f32)), { LS : List (View.Piece (Elt F) S2048x128 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0_ntxent_kernel i arg2 harg2 arg3 harg3 arg4 harg4 arg5 harg5) K } := by
  refine ⟨[], ?_, fun xi2 E K => ?run⟩
  case run =>
    simp only [cc0_ntxent_kernel_eq_skeleton]; unfold cc0_ntxent_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Rows

end
-- ==== Proof.K.RunMid.lean ====
/-
  The body of the kernel, as printed, run symbolically at a point whose column-tile coordinate is neither 0 nor 7.
-/
import proofs.«158876_j63264868270602_2_alg».proof.Proof.K.RunFirst

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A MIDDLE COLUMN TILE (column coordinate 1 … 6): the accumulator enters at what the tile before left, `xs`, and
    leaves with this tile's lane-folded sums added; the row sums are not touched. -/
noncomputable def runMid (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : ¬isLast i)
    (x0 : Vec F S2048x256 .bf16) (x1 : Vec F S1024x256 .bf16) (xs : Vec F S2048x128 .f32) :
    Σ' (L2 : List (View.Piece (Elt F) S2048x1 .f32)), { LS : List (View.Piece (Elt F) S2048x128 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0_ntxent_kernel i arg2 harg2 arg3 harg3 arg4 harg4 arg5 harg5) K } := by
  refine ⟨[], ?_, fun xi2 E K => ?run⟩
  case run =>
    simp only [cc0_ntxent_kernel_eq_skeleton]; unfold cc0_ntxent_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Rows

end
-- ==== Proof.K.RunLast.lean ====
/-
  The body of the kernel, as printed, run symbolically at a point whose column-tile coordinate is 7.
-/
import proofs.«158876_j63264868270602_2_alg».proof.Proof.K.RunMid

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE LAST COLUMN TILE (column coordinate 7): the accumulator enters at `xs`, this tile's sums are added, and the 128
    lanes of each row are summed into the row-sum buffer, which enters at anything and leaves holding the pieces `L2`. -/
noncomputable def runLast (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : isLast i)
    (x0 : Vec F S2048x256 .bf16) (x1 : Vec F S1024x256 .bf16) (xs : Vec F S2048x128 .f32) :
    Σ' (L2 : List (View.Piece (Elt F) S2048x1 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0_ntxent_kernel i arg2 harg2 arg3 harg3 arg4 harg4 arg5 harg5) K } := by
  refine ⟨?_, ?_, fun E K => ?run⟩
  case run =>
    simp only [cc0_ntxent_kernel_eq_skeleton]; unfold cc0_ntxent_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Rows

end
-- ==== Proof.K.Data.lean ====
/-
  What the kernel's buffers hold, point by point.  The 32 points are 4 row tiles times 8 column tiles.  At
  column tile 0 the accumulator is zeroed; at every column tile the tile's masked exponentials, folded from 1024
  columns to 128 lanes, are added to it; at column tile 7 its 128 lanes are summed per row into the row-sum block,
  which is the only point that stores it and the only point that writes it back.  The accumulator is therefore a
  function of the points since the last column tile 0, and the proof data carries it in the region's invariant.
-/
import proofs.«158876_j63264868270602_2_alg».proof.Proof.K.RunLast

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves

The runs found, by unification, the list of pieces each buffer ends with.  Read back over anything, a list that tiles
the buffer gives its contents. -/

/-- First tile: nothing is stored into the row sums (a placeholder nothing consults). -/
def outFirst (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : isFirst i) (hc1 : ¬isLast i) (x0 : Vec F S2048x256 .bf16) (x1 : Vec F S1024x256 .bf16) : Vec F S2048x1 .f32 :=
  outV.read (Elt F) (outV.writes (Elt F) outV.junk (runFirst c i arg2 harg2 arg3 harg3 arg4 harg4 arg5 harg5 hc0 hc1 x0 x1).1)
theorem accFirst_cover (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : isFirst i) (hc1 : ¬isLast i) (x0 : Vec F S2048x256 .bf16) (x1 : Vec F S1024x256 .bf16) (y : S2048x128.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S2048x128.size (by sl_kernel_rfl) y
/-- First tile: the accumulator after it. -/
def accFirst (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : isFirst i) (hc1 : ¬isLast i) (x0 : Vec F S2048x256 .bf16) (x1 : Vec F S1024x256 .bf16) : Vec F S2048x128 .f32 :=
  accV.read (Elt F) (accV.writes (Elt F) accV.junk (runFirst c i arg2 harg2 arg3 harg3 arg4 harg4 arg5 harg5 hc0 hc1 x0 x1).2.1)

def outMid (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : ¬isLast i) (x0 : Vec F S2048x256 .bf16) (x1 : Vec F S1024x256 .bf16) (xs : Vec F S2048x128 .f32) : Vec F S2048x1 .f32 :=
  outV.read (Elt F) (outV.writes (Elt F) outV.junk (runMid c i arg2 harg2 arg3 harg3 arg4 harg4 arg5 harg5 hc0 hc1 x0 x1 xs).1)
theorem accMid_cover (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : ¬isLast i) (x0 : Vec F S2048x256 .bf16) (x1 : Vec F S1024x256 .bf16) (xs : Vec F S2048x128 .f32) (y : S2048x128.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S2048x128.size (by sl_kernel_rfl) y
def accMid (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : ¬isLast i) (x0 : Vec F S2048x256 .bf16) (x1 : Vec F S1024x256 .bf16) (xs : Vec F S2048x128 .f32) : Vec F S2048x128 .f32 :=
  accV.read (Elt F) (accV.writes (Elt F) accV.junk (runMid c i arg2 harg2 arg3 harg3 arg4 harg4 arg5 harg5 hc0 hc1 x0 x1 xs).2.1)

theorem outLast_cover (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : isLast i) (x0 : Vec F S2048x256 .bf16) (x1 : Vec F S1024x256 .bf16) (xs : Vec F S2048x128 .f32) (y : S2048x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x1.size (by sl_kernel_rfl) y
/-- Last tile: the 2048 row sums. -/
def outLast (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : isLast i) (x0 : Vec F S2048x256 .bf16) (x1 : Vec F S1024x256 .bf16) (xs : Vec F S2048x128 .f32) : Vec F S2048x1 .f32 :=
  outV.read (Elt F) (outV.writes (Elt F) outV.junk (runLast c i arg2 harg2 arg3 harg3 arg4 harg4 arg5 harg5 hc0 hc1 x0 x1 xs).1)
theorem accLast_cover (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : isLast i) (x0 : Vec F S2048x256 .bf16) (x1 : Vec F S1024x256 .bf16) (xs : Vec F S2048x128 .f32) (y : S2048x128.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x128.size (by sl_kernel_rfl) y
def accLast (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : isLast i) (x0 : Vec F S2048x256 .bf16) (x1 : Vec F S1024x256 .bf16) (xs : Vec F S2048x128 .f32) : Vec F S2048x128 .f32 :=
  accV.read (Elt F) (accV.writes (Elt F) accV.junk (runLast c i arg2 harg2 arg3 harg3 arg4 harg4 arg5 harg5 hc0 hc1 x0 x1 xs).2.1)

/-! ## Point by point -/

/-- What the three kinds of point leave (row sums, accumulator), at point `t`'s memrefs and blocks. -/
def firstAt (c : Dev nD) (t : Fin cfg0.N) (h0 : t.val % 8 = 0) : Vec F S2048x1 .f32 × Vec F S2048x128 .f32 :=
  (outFirst c (grid0.coords t) (rowM t) (rowM_whole t) (colM t) (colM_whole t) (outM t) (outM_whole t) accM (Memref.isWhole_whole _) ((isFirst_iff t).mpr h0) (fun h => by have := (isLast_iff t).mp h; omega) (iblk m c 0 t) (iblk m c 1 t),
   accFirst c (grid0.coords t) (rowM t) (rowM_whole t) (colM t) (colM_whole t) (outM t) (outM_whole t) accM (Memref.isWhole_whole _) ((isFirst_iff t).mpr h0) (fun h => by have := (isLast_iff t).mp h; omega) (iblk m c 0 t) (iblk m c 1 t))
def midAt (c : Dev nD) (t : Fin cfg0.N) (h0 : ¬t.val % 8 = 0) (h1 : ¬t.val % 8 = 7) (xs : Vec F S2048x128 .f32) : Vec F S2048x1 .f32 × Vec F S2048x128 .f32 :=
  (outMid c (grid0.coords t) (rowM t) (rowM_whole t) (colM t) (colM_whole t) (outM t) (outM_whole t) accM (Memref.isWhole_whole _) (fun h => h0 ((isFirst_iff t).mp h)) (fun h => h1 ((isLast_iff t).mp h)) (iblk m c 0 t) (iblk m c 1 t) xs,
   accMid c (grid0.coords t) (rowM t) (rowM_whole t) (colM t) (colM_whole t) (outM t) (outM_whole t) accM (Memref.isWhole_whole _) (fun h => h0 ((isFirst_iff t).mp h)) (fun h => h1 ((isLast_iff t).mp h)) (iblk m c 0 t) (iblk m c 1 t) xs)
def lastAt (c : Dev nD) (t : Fin cfg0.N) (h0 : ¬t.val % 8 = 0) (h1 : t.val % 8 = 7) (xs : Vec F S2048x128 .f32) : Vec F S2048x1 .f32 × Vec F S2048x128 .f32 :=
  (outLast c (grid0.coords t) (rowM t) (rowM_whole t) (colM t) (colM_whole t) (outM t) (outM_whole t) accM (Memref.isWhole_whole _) (fun h => h0 ((isFirst_iff t).mp h)) ((isLast_iff t).mpr h1) (iblk m c 0 t) (iblk m c 1 t) xs,
   accLast c (grid0.coords t) (rowM t) (rowM_whole t) (colM t) (colM_whole t) (outM t) (outM_whole t) accM (Memref.isWhole_whole _) (fun h => h0 ((isFirst_iff t).mp h)) ((isLast_iff t).mpr h1) (iblk m c 0 t) (iblk m c 1 t) xs)

/-- THE ACCUMULATION.  After point `n`: the first tile of a row tile starts over; every other tile continues from what
    the point before left in the accumulator. -/
def stateAt (c : Dev nD) : (n : ℕ) → n < cfg0.N → Vec F S2048x1 .f32 × Vec F S2048x128 .f32
  | 0, hn => firstAt m c ⟨0, hn⟩ (Nat.zero_mod _)
  | n + 1, hn =>
    if h0 : (n + 1) % 8 = 0 then firstAt m c ⟨n + 1, hn⟩ h0
    else if h1 : (n + 1) % 8 = 7 then lastAt m c ⟨n + 1, hn⟩ h0 h1 (stateAt c n (Nat.lt_of_succ_lt hn)).2
    else midAt m c ⟨n + 1, hn⟩ h0 h1 (stateAt c n (Nat.lt_of_succ_lt hn)).2

theorem stateAt_first (c : Dev nD) (t : Fin cfg0.N) (h0 : t.val % 8 = 0) : stateAt m c t.val t.isLt = firstAt m c t h0 := by
  obtain ⟨n, hn⟩ := t
  cases n with
  | zero => rfl
  | succ n => exact dif_pos h0

theorem stateAt_mid (c : Dev nD) (t : Fin cfg0.N) (h0 : ¬t.val % 8 = 0) (h1 : ¬t.val % 8 = 7) :
    stateAt m c t.val t.isLt = midAt m c t h0 h1 (stateAt m c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem stateAt_last (c : Dev nD) (t : Fin cfg0.N) (h0 : ¬t.val % 8 = 0) (h1 : t.val % 8 = 7) :
    stateAt m c t.val t.isLt = lastAt m c t h0 h1 (stateAt m c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The invariant before point `n`: the accumulator at anything before the first point, afterwards at what the point
    before left in it. -/
def PhiS (c : Dev nD) : (n : ℕ) → n ≤ cfg0.N → sProp 𝕄
  | 0, _ => iprop(∃ d, owns (c : Thread nD τ) accM fullShare d)
  | n + 1, hn => owns (c : Thread nD τ) accM fullShare (stateAt m c n hn).2

theorem PhiS_succ (c : Dev nD) (n : ℕ) (hn : n < cfg0.N) :
    PhiS m c (n + 1) hn = owns (c : Thread nD τ) accM fullShare (stateAt m c n hn).2 := rfl
theorem PhiS_pos (c : Dev nD) (n : ℕ) (h : n ≤ cfg0.N) (hz : n ≠ 0) :
    PhiS m c n h = owns (c : Thread nD τ) accM fullShare (stateAt m c (n - 1) (by omega)).2 := by
  cases n with
  | zero => exact absurd rfl hz
  | succ n => rfl
theorem PhiS_any (c : Dev nD) (n : ℕ) (h : n ≤ cfg0.N) : PhiS m c n h ⊢ iprop(∃ d, owns (c : Thread nD τ) accM fullShare d) := by
  cases n with
  | zero => exact .rfl
  | succ n => rw [PhiS_succ]; iintro H; iexists _; iexact H

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by dsimp only [dats]
theorem q0 (c : Dev nD) : (dats m 0 c).q 0 = fullShare.left := by dsimp only [dats]
theorem q1 (c : Dev nD) : (dats m 0 c).q 1 = fullShare.right := by dsimp only [dats]
theorem Phi_castSucc (c : Dev nD) (t : Fin cfg0.N) : (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stateAt m c t.val t.isLt).1 := by dsimp only [dats]
theorem before0 (c : Dev nD) (t : Fin cfg0.N) (d) : (dats m 0 c).before 0 t d = iblk m c 0 t :=
  rowTile_of m (dats m 0 c) (A_eq m c 0) (after0 m c) t d
theorem before1 (c : Dev nD) (t : Fin cfg0.N) (d) : (dats m 0 c).before 1 t d = iblk m c 1 t :=
  colTile_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (rowM t) fullShare ((dats m 0 c).before 0 t d))
    ∗ (∃ d, owns (c : Thread nD τ) (colM t) fullShare ((dats m 0 c).before 1 t d))
    ∗ (∃ d, owns (c : Thread nD τ) (outM t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 4800000 in
/-- The body at any point.  The tiles' buffers hold their blocks; the point number modulo 8 says which kind of point it
    is; the invariant hands the body the accumulator as the point before left it and takes it back as this point leaves
    it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (rowM t) fullShare ((dats m 0 c).after 0 t) from by
    unfold Dat.leavesExact; rw [live0 t], after0]
  rw [show (dats m 0 c).leavesExact 1 t = owns (c : Thread nD τ) (colM t) fullShare ((dats m 0 c).after 1 t) from by
    unfold Dat.leavesExact; rw [live1 t], after1]
  rw [Phi_castSucc m c t]
  by_cases h0 : t.val % 8 = 0
  · have h1 : ¬t.val % 8 = 7 := by omega
    rw [Dat.leavesExact_idle (dats m 0 c) 2 t (idle2 t (fun h => h1 ((isLast_iff t).mp h))) (noFlush2 t (fun h => h1 ((isLast_iff t).mp h)))]
    rw [stateAt_first m c t h0]
    unfold firstAt accFirst; (try dsimp only)
    iintro ⟨HS, Ho, ⟨%d0, H0⟩, ⟨%d1, H1⟩, ⟨%d2, H2⟩⟩
    iapply ((runFirst c (grid0.coords t) _ _ _ _ _ _ _ _ ((isFirst_iff t).mpr h0) (fun h => h1 ((isLast_iff t).mp h)) (iblk m c 0 t) (iblk m c 1 t)).2.2 _ Set.univ _)
    isplitl [H0]; · iexact H0
    isplitl [H1]; · iexact H1
    isplitl [H2]; · iexact H2
    isplitl [HS]; · iapply (PhiS_any m c t.val _); iexact HS
    iintro ⟨H0, H1, H2, ⟨%es, HS⟩⟩
    isplitl [HS]
    · unfold owns; iexists _; isplitr
      swap; · iexact HS
      ipureintro; exact View.read_writes_of_cover _ _ _ _ _ (accFirst_cover c _ _ _ _ _ _ _ _ _ _ _ _ _)
    isplitl [Ho]; · iexact Ho
    isplitl [H0]; · iexact H0
    isplitl [H1]; · iexact H1
    iexists _; iexact H2
  · have hz : t.val ≠ 0 := fun e => h0 (by rw [e])
    rw [PhiS_pos m c _ _ hz]
    by_cases h1 : t.val % 8 = 7
    · rw [show (dats m 0 c).leavesExact 2 t = owns (c : Thread nD τ) (outM t) fullShare ((dats m 0 c).after 2 t) from by
        unfold Dat.leavesExact; rw [live2 t ((isLast_iff t).mpr h1)], after2]
      rw [stateAt_last m c t h0 h1]
      unfold lastAt outLast accLast; (try dsimp only)
      iintro ⟨HS, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS]
      · unfold owns; iexists _; isplitr
        swap; · iexact HS
        ipureintro; exact View.read_writes_of_cover _ _ _ _ _ (accLast_cover c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · rw [Dat.leavesExact_idle (dats m 0 c) 2 t (idle2 t (fun h => h1 ((isLast_iff t).mp h))) (noFlush2 t (fun h => h1 ((isLast_iff t).mp h)))]
      rw [stateAt_mid m c t h0 h1]
      unfold midAt accMid; (try dsimp only)
      iintro ⟨HS, Ho, ⟨%d0, H0⟩, ⟨%d1, H1⟩, ⟨%d2, H2⟩⟩
      iapply ((runMid c (grid0.coords t) _ _ _ _ _ _ _ _ (fun h => h0 ((isFirst_iff t).mp h)) (fun h => h1 ((isLast_iff t).mp h)) (iblk m c 0 t) (iblk m c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS]
      · unfold owns; iexists _; isplitr
        swap; · iexact HS
        ipureintro; exact View.read_writes_of_cover _ _ _ _ _ (accMid_cover c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Rows

end
-- ==== Proof.K.Shared.lean ====
/-
  The row-tile window and the column-tile window of the kernel stage blocks of ONE array, the normalized matrix: the
  similarity of row n and row m needs both.  Neither window writes it, so each can hold half of its share for the
  whole region.  This module says how the two buffers behind the three windows, held whole, become the windows'
  arrays at those shares, and back.
-/
import proofs.«158876_j63264868270602_2_alg».proof.Proof.Gen.Kernel.Launch
import proofs.«158876_j63264868270602_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind the three windows are two: the normalized matrix (read by the row-tile window and by the
    column-tile window) and the row sums. -/
theorem arrRef_image : (Finset.univ.image (Pipeline.arrRef spec0) : Finset (Ref sig .tc)) = {main_v17, main_v25} := by decide

/-- ONE MATRIX, TWO READERS.  With the row-tile window holding the left half of the matrix's share and the column-tile
    window the right half, the three windows' arrays at contents `Fw` are exactly the two buffers held whole at `W`,
    whenever `Fw` reads `W` at each window's buffer: the two halves of the matrix's share make the whole, and the
    whole splits into them. -/
theorem arrays_iff (c : Dev nD) (dat : Dat τ (Elt F) Unit ℕ (UR sig nD τ) ℕ cfg0 c)
    (hq0 : dat.q 0 = fullShare.left) (hq1 : dat.q 1 = fullShare.right)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    (dat.arrays Fw : sProp 𝕄) ⊣⊢ Pipeline.arrBufs spec0 c W := by
  unfold Dat.arrays Pipeline.arrBufs
  rw [bigSep_W0, arrRef_image, bigSep_insert (by decide), bigSep_singleton]
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_pos (by decide)]
  rw [s0, s1, s2, hF 0, hF 1, hF 2, (arr_whole0 0).set_eq_univ, (arr_whole0 2).set_eq_univ]
  show (iprop(((c.tc : Thread nD τ).loc main_v17 ↦{fullShare.left} W main_v17) ∗ ((c.tc : Thread nD τ).loc main_v17 ↦{fullShare.right} W main_v17)
      ∗ ((c.tc : Thread nD τ).loc main_v25 ↦{fullShare} W main_v25)) : sProp 𝕄)
    ⊣⊢ iprop(((c.tc : Thread nD τ).loc main_v17 ↦{fullShare} W main_v17) ∗ ((c.tc : Thread nD τ).loc main_v25 ↦{fullShare} W main_v25))
  constructor
  · iintro ⟨H0, H1, H2⟩
    isplitl [H0 H1]
    · iapply (pointsTo_share (PosShare.mem_left_op_right fullShare)).2
      isplitl [H0] <;> iassumption
    · iexact H2
  · iintro ⟨H01, H2⟩
    ihave H := (pointsTo_share (PosShare.mem_left_op_right fullShare)).1 $$ [H01]
    · iexact H01
    icases H with ⟨H0, H1⟩
    isplitl [H0]; · iexact H0
    isplitl [H1]; · iexact H1
    iexact H2

end Cert.Kernel.Rows

end
-- ==== Proof.K.Run.lean ====
/-
  The kernel's program runs: every weakly fair execution terminates, nothing faults, and every buffer's final
  contents are named.  The region reads the normalized matrix through two windows holding half of its share each
  (module Shared); around it the program is host operations, so at entry the two buffers behind the windows are carved
  out of the unscoped buffers and split, and at exit — neither half having been written — they are put back together
  and the seven operations after the region run over all unscoped buffers at once.
-/
import proofs.«158876_j63264868270602_2_alg».proof.Proof.K.Data
import proofs.«158876_j63264868270602_2_alg».proof.Proof.K.Shared

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's exit and at the program's end -/

/-- Every buffer when the region is left: the row sums as the 32 points' write-backs leave them, everything else as
    the region found it (the normalized matrix is only read). -/
def Vexit (c : Dev nD) : Valuation τ sig (Elt F) :=
  Function.update (V0 m c) (Proc.devRef .tc main_v25) ((dats m 0 c).arrAt 2 cfg0.N)

/-- Every buffer when the program ends: the seven operations after the region applied to that. -/
def Vend (c : Dev nD) : Valuation τ sig (Elt F) := StableHlo.after hostOps1 (Vexit m c)

theorem Vexit_sums (c : Dev nD) : Vexit m c (Proc.devRef .tc main_v25) = (dats m 0 c).arrAt 2 cfg0.N := by
  unfold Vexit; rw [Function.update_self]

theorem Vexit_of_ne (c : Dev nD) (b : Ref sig .tc) (hb : b ≠ main_v25) : Vexit m c (Proc.devRef .tc b) = V m c b := by
  unfold Vexit; rw [Function.update_of_ne (fun e => hb (Proc.devRef_injective _ e))]

/-- At exit each window's array is what `Vexit` says of its buffer: an input's array was never written. -/
theorem arrAt_exit (c : Dev nD) (w : Fin cfg0.W) :
    (dats m 0 c).arrAt w cfg0.N = Vexit m c (Proc.devRef .tc (Pipeline.arrRef spec0 w)) := by
  fin_cases w
  · exact ((dats m 0 c).arrAt_in 0 rfl _).trans ((A_eq m c 0).trans (Vexit_of_ne m c _ (by decide)).symm)
  · exact ((dats m 0 c).arrAt_in 1 rfl _).trans ((A_eq m c 1).trans (Vexit_of_ne m c _ (by decide)).symm)
  · exact (Vexit_sums m c).symm

/-- The operations after the region write neither the normalized matrix nor the row sums. -/
theorem tail_keeps (b : Ref sig .tc) (hb : b = main_v17 ∨ b = main_v25) :
    ∀ op ∈ (hostOps1 : List (HloOp τ sig (Elt F))), Proc.devRef .tc b ∉ op.writes := by
  intro op hop
  simp only [hostOps1, List.mem_cons, List.mem_nil_iff, or_false] at hop
  rcases hb with rfl | rfl <;> rcases hop with rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem arrAt_end (c : Dev nD) (w : Fin cfg0.W) :
    (dats m 0 c).arrAt w cfg0.N = Vend m c (Proc.devRef .tc (Pipeline.arrRef spec0 w)) := by
  unfold Vend
  rw [StableHlo.after_of_forall_not_mem _ _ (tail_keeps (Pipeline.arrRef spec0 w) (by fin_cases w <;> simp [Pipeline.arrRef]))]
  exact arrAt_exit m c w

/-- Off the two buffers behind the windows, `Vexit` is the entry contents. -/
theorem rest_exit (c : Dev nD) :
    (Pipeline.unscopedRest spec0 c (V m c) : sProp 𝕄) = Pipeline.unscopedRest spec0 c (fun b => Vexit m c (Proc.devRef .tc b)) := by
  unfold Pipeline.unscopedRest
  refine bigSep_congr fun b hb => ?_
  dsimp only
  rw [Vexit_of_ne m c b fun e => (Finset.mem_sdiff.mp hb).2 (Finset.mem_image.mpr ⟨2, Finset.mem_univ _, e.symm⟩)]

/-- The windows' arrays at `Fw` and the two buffers held whole at `W` are one assertion when `Fw` reads `W`. -/
theorem arrays_eq_bufs (c : Dev nD) (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    ((dats m 0 c).arrays Fw : sProp 𝕄) = Pipeline.arrBufs spec0 c W :=
  equiv_iff.mp ⟨(arrays_iff c (dats m 0 c) (q0 m c) (q1 m c) W Fw hF).1, (arrays_iff c (dats m 0 c) (q0 m c) (q1 m c) W Fw hF).2⟩

/-! ## The run -/

set_option backward.isDefEq.respectTransparency.types false in
/-- THE RUN.  From any memory with the counters at zero every weakly fair execution of the program terminates without a
    fault; at the end the two buffers behind the windows hold what the write-backs left, and every other unscoped
    buffer — the arguments and the result among them — holds `Vend`. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Vend m c (Proc.devRef .tc b)) := by
  classical
  refine Pipeline.θ_run_region_noSem_pf_tail (fun p => (cfgs p).toPCfg) (fun p => (cfgs p).toPCfg_adm) (dats m) () cellOf_inj (0 : Fin 1) winFacts₀0
    (Pipeline.PreFacts.none _) emb₁ defs₀ Variants.none m ρ main (fun _ => Pipeline.chain [StableHlo.seq hostOps1])
    (fun c => (body_obligation m c).loose) block_pos0 arr_whole0 stage_whole0 (fun _ _ => rfl)
    (initOf (Pipeline.cells cfgs cellOf_inj) (Pipeline.launchToks cfgs cellOf_inj)) .rfl (V m) (hmain m Variants.none)
    (fun c => ((arrays_iff c (dats m 0 c) (q0 m c) (q1 m c) (V m c) (fun w => (dats m 0 c).arrAt w 0) (A_eq m c)).2))
    (fun _ k => k.elim0)
    (fun _ => iprop(emp)) (fun _ => iprop(emp))
    (fun c => Pipeline.unscopedRest spec0 c (V m c))
    (fun c => Pipeline.unscopedRest spec0 c (fun b => Vend m c (Proc.devRef .tc b)))
    (fun c => ?hX) (fun c => ?hin) (fun c => ?hout) (fun c Q' => ?htail)
    (fun c s => ∀ b ∈ Pipeline.restRefs sig spec0, s.mem ((c.tc : Thread nD τ).loc b) = Vend m c (Proc.devRef .tc b))
    (fun c s' => ?hY) (fun s h c => ⟨(h c).1, (h c).2.2⟩)
  case hX =>
    rw [Pipeline.unscopedRestP_none]
    iintro H; isplitr; · iempintro
    iexact H
  case hin =>
    rw [show (dats m 0 c).Φ 0 = iprop(∃ d, owns (c : Thread nD τ) accM fullShare d) from rfl, scoped_eq]
    iintro ⟨-, -, H⟩; iexact H
  case hout =>
    rw [show (dats m 0 c).Φ (Fin.last cfg0.N) = PhiS m c cfg0.N (le_refl _) from rfl, scoped_eq]
    iintro H; isplitr; · iempintro
    iapply (PhiS_any m c _ _); iexact H
  case hY =>
    iintro ⟨-, HU, HSI⟩
    unfold Pipeline.unscopedRest
    imodintro
    iapply (pointsTo_read_all (Pipeline.restRefs sig spec0) (fun b => (c.tc : Thread nD τ).loc b) (fun b => Vend m c (Proc.devRef .tc b)) s')
    isplitl [HU] <;> iassumption
  case htail =>
    have hW : (StableHlo.held (c.tc : Thread nD τ) (Pipeline.ucRefs τ sig) (Vexit m c) : sProp 𝕄)
        = iprop((dats m 0 c).arrays ((dats m 0 c).arrAt · cfg0.N) ∗ Pipeline.unscopedRest spec0 c (V m c)) := by
      rw [← Pipeline.unscopedBufs_held (Ix := Unit) (Name := ℕ) (U := UR sig nD τ) (Lvl := ℕ) c (Vexit m c),
        Pipeline.unscopedBufs_split₀ cfgs 0 winFacts₀0.arr_unscoped c, rest_exit m c]
      rw [arrays_eq_bufs m c (fun b => Vexit m c (Proc.devRef .tc b)) (fun w => (dats m 0 c).arrAt w cfg0.N) (arrAt_exit m c)]
    have hW' : (StableHlo.held (c.tc : Thread nD τ) (Pipeline.ucRefs τ sig) (Vend m c) : sProp 𝕄)
        = iprop((dats m 0 c).arrays ((dats m 0 c).arrAt · cfg0.N) ∗ Pipeline.unscopedRest spec0 c (fun b => Vend m c (Proc.devRef .tc b))) := by
      rw [← Pipeline.unscopedBufs_held (Ix := Unit) (Name := ℕ) (U := UR sig nD τ) (Lvl := ℕ) c (Vend m c),
        Pipeline.unscopedBufs_split₀ cfgs 0 winFacts₀0.arr_unscoped c]
      rw [arrays_eq_bufs m c (fun b => Vend m c (Proc.devRef .tc b)) (fun w => (dats m 0 c).arrAt w cfg0.N) (arrAt_end m c)]
    rw [← List.append_nil ([StableHlo.seq hostOps1]), ← hW]
    iintro ⟨Hk, Hb⟩
    iapply (Pipeline.wp_seqs_then (fun p => (cfgs p).toPCfg) defs₀ Variants.none c (Pipeline.ucRefs τ sig) [] [hostOps1]
      (fun ops ho op h => by
        simp only [List.mem_cons, List.mem_nil_iff, _root_.or_false] at ho; subst ho
        exact Pipeline.sub_ucRefs op ((List.forall_iff_forall_mem.mp hostOps1_sub) op h))
      (fun ops ho op h => by
        simp only [List.mem_cons, List.mem_nil_iff, _root_.or_false] at ho; subst ho
        exact (List.forall_iff_forall_mem.mp hostOps1_fresh) op h) (Vexit m c)) $$ Hb
    iintro Hb
    rw [Pipeline.chain_nil, wp_pure]
    rw [show StableHlo.after ([hostOps1] : List (List (HloOp τ sig (Elt F)))).flatten (Vexit m c) = Vend m c from by
      simp only [List.flatten_cons, List.flatten_nil, List.append_nil]; rfl, hW']
    imodintro
    iapply Hk
    icases Hb with ⟨-, H⟩
    iexact H

/-- info: 'Cert.Kernel.Rows.run_main' depends on axioms: [propext, Classical.choice, Quot.sound] -/
#guard_msgs in #print axioms run_main

end Cert.Kernel.Rows

end
-- ==== Proof.K.Frame.lean ====
/-
  The frame of the kernel's program: the run of module Run, read at the two argument buffers.  Neither is
  a window's array and no host operation writes one, so each ends at its launch contents.
-/
import proofs.«158876_j63264868270602_2_alg».proof.Proof.K.Run

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation of the program writes its first argument: at the end it is what the launch found. -/
theorem Vend_arg0 (c : Dev nD) : Vend m c (Proc.devRef .tc main_arg0) = m ((c.tc : Thread nD τ).loc main_arg0) := by
  unfold Vend hostOps1
  after_results
  unfold Vexit
  rw [Function.update_of_ne (StableHlo.devRef_ne_of_ne (by decide))]
  show StableHlo.after (List.flatten [hostOps0]) (fun b => m (c, b)) (Proc.devRef .tc main_arg0) = _
  simp only [hostOps0, List.flatten_cons, List.flatten_nil, List.append_nil]
  after_results

/-- Nor its second. -/
theorem Vend_arg1 (c : Dev nD) : Vend m c (Proc.devRef .tc main_arg1) = m ((c.tc : Thread nD τ).loc main_arg1) := by
  unfold Vend hostOps1
  after_results
  unfold Vexit
  rw [Function.update_of_ne (StableHlo.devRef_ne_of_ne (by decide))]
  show StableHlo.after (List.flatten [hostOps0]) (fun b => m (c, b)) (Proc.devRef .tc main_arg1) = _
  simp only [hostOps0, List.flatten_cons, List.flatten_nil, List.append_nil]
  after_results

theorem arg0_rest : main_arg0 ∈ Pipeline.restRefs sig spec0 := by decide
theorem arg1_rest : main_arg1 ∈ Pipeline.restRefs sig spec0 := by decide

/-- THE FRAME: the program runs to its end, faults nowhere, and both arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 _ arg0_rest).trans (Vend_arg0 m c), ((h c).2 _ arg1_rest).trans (Vend_arg1 m c)⟩) (run_main m ρ)

end Cert.Kernel.Rows

end
-- ==== Proof.KI.Setup.lean ====
/-
  The idealized kernel's region, before any run: what the region is entered with, the blocks its three windows
  stage, the two conditions its body branches on (decided over the 32 grid points), and the memrefs it is called
  with.  The grid is 4 row tiles by 8 column tiles of the 8192 x 8192 similarity matrix, which is never stored:
  each point adds its 2048 x 1024 tile's masked exponentials, folded to 128 lanes, into an accumulator.
-/
import proofs.«158876_j63264868270602_2_alg».proof.Proof.Gen.KernelIdeal.Launch
import proofs.«158876_j63264868270602_2_alg».proof.Proof.Gen.KernelIdeal.Skeleton
import proofs.«158876_j63264868270602_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents the region is entered with

Thirty-one host operations run before the region: the two arguments stacked, each row divided by its norm twice,
the result narrowed, and the positive-pair term. `V0` is every buffer after them. -/

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the operations before the region, the region, the seven operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The blocks

Window 0 is the row tile (2048 rows of the normalized matrix, indexed by the first grid coordinate), window 1 the
column tile (1024 rows of the SAME matrix, indexed by the second), window 2 the 2048 row sums. -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile's buffer holds its block at every point: it is fetched when the first coordinate moves, and in
    between the body leaves it alone. -/
theorem rowTile_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column tile's buffer holds its block at every point. -/
theorem colTile_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body

The body zeroes its accumulator when the column-tile coordinate is 0 and writes the row sums out when it is 7.
With the grid 4 × 8 read row-major, the point number modulo 8 is that coordinate. -/

abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The input windows are never idle; -/
theorem live0 : ∀ t : Fin cfg0.N, cfg0.idle 0 (grid0.coords t) = false := by decide +kernel
theorem live1 : ∀ t : Fin cfg0.N, cfg0.idle 1 (grid0.coords t) = false := by decide +kernel
/-- the row sums are stored, and written back, only at the last column tile. -/
theorem idle2 : ∀ t : Fin cfg0.N, ¬isLast (grid0.coords t) → cfg0.idle 2 (grid0.coords t) = true := by decide +kernel
theorem noFlush2 : ∀ t : Fin cfg0.N, ¬isLast (grid0.coords t) → (cfg0.win 2).flush t = false := by decide +kernel
theorem live2 : ∀ t : Fin cfg0.N, isLast (grid0.coords t) → cfg0.idle 2 (grid0.coords t) = false := by decide +kernel

/-! ## The memrefs the body is called with -/

abbrev rowM (t : Fin cfg0.N) : Memref sig .tc .vmem S2048x256 .bf16 := win0_0.stage (cfg0.slots t 0)
abbrev rowM_whole (t : Fin cfg0.N) : (rowM t).IsWhole := hstage0_0 ((cfg0.slots t 0).cast nbuf0_0)
abbrev colM (t : Fin cfg0.N) : Memref sig .tc .vmem S1024x256 .bf16 := win0_1.stage (cfg0.slots t 1)
abbrev colM_whole (t : Fin cfg0.N) : (colM t).IsWhole := hstage0_1 ((cfg0.slots t 1).cast nbuf0_1)
abbrev outM (t : Fin cfg0.N) : Memref sig .tc .vmem S2048x1 .f32 := win0_2.stage (cfg0.slots t 2)
abbrev outM_whole (t : Fin cfg0.N) : (outM t).IsWhole := hstage0_2 ((cfg0.slots t 2).cast nbuf0_2)
/-- The accumulator: 2048 rows of 128 lane-wise partial sums, kept from one column tile to the next. -/
abbrev accM : Memref sig .tc .vmem S2048x128 .f32 := Memref.whole cc0_scratch0
abbrev accV : View sig .tc .vmem S2048x128 .f32 := accM.view
abbrev outV : View sig .tc .vmem S2048x1 .f32 := (Memref.whole cc0_stg2_0 : Memref sig .tc .vmem S2048x1 .f32).view

/-- The only scoped buffer that is no staging buffer is the accumulator. -/
theorem scoped_eq (c : Dev nD) :
    (Pipeline.scopedRest spec0 c : sProp 𝕄) = iprop(∃ d, owns (c : Thread nD τ) accM fullShare d) := by
  rw [scopedRest0_eq]; simp only [accM, owns_whole]; try rfl

end Cert.KernelIdeal.Rows

end
-- ==== Proof.KI.RunFirst.lean ====
/-
  The body of the idealized kernel run symbolically at a point whose column-tile coordinate is 0.
-/
import proofs.«158876_j63264868270602_2_alg».proof.Proof.KI.Setup

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- THE FIRST COLUMN TILE of a row tile (column coordinate 0).  On whole memrefs — the row tile at `x0`, the column tile at
    `x1`, the row sums at `xi2` (not touched here), the accumulator at anything — the body runs to its end with the tiles
    and the row sums as they were and the accumulator holding the pieces `LS` it stored: zeros first, then this tile's
    lane-folded sums added to them. -/
noncomputable def runFirst (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : isFirst i) (hc1 : ¬isLast i)
    (x0 : Vec F S2048x256 .bf16) (x1 : Vec F S1024x256 .bf16) :
    Σ' (L2 : List (View.Piece (Elt F) S2048x1 .f32)), { LS : List (View.Piece (Elt F) S2048x128 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0_ntxent_kernel i arg2 harg2 arg3 harg3 arg4 harg4 arg5 harg5) K } := by
  refine ⟨[], ?_, fun xi2 E K => ?run⟩
  case run =>
    simp only [cc0_ntxent_kernel_eq_skeleton]; unfold cc0_ntxent_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Rows

end
-- ==== Proof.KI.RunMid.lean ====
/-
  The body of the idealized kernel run symbolically at a point whose column-tile coordinate is neither 0 nor 7.
-/
import proofs.«158876_j63264868270602_2_alg».proof.Proof.KI.RunFirst

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A MIDDLE COLUMN TILE (column coordinate 1 … 6): the accumulator enters at what the tile before left, `xs`, and
    leaves with this tile's lane-folded sums added; the row sums are not touched. -/
noncomputable def runMid (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : ¬isLast i)
    (x0 : Vec F S2048x256 .bf16) (x1 : Vec F S1024x256 .bf16) (xs : Vec F S2048x128 .f32) :
    Σ' (L2 : List (View.Piece (Elt F) S2048x1 .f32)), { LS : List (View.Piece (Elt F) S2048x128 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0_ntxent_kernel i arg2 harg2 arg3 harg3 arg4 harg4 arg5 harg5) K } := by
  refine ⟨[], ?_, fun xi2 E K => ?run⟩
  case run =>
    simp only [cc0_ntxent_kernel_eq_skeleton]; unfold cc0_ntxent_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Rows

end
-- ==== Proof.KI.RunLast.lean ====
/-
  The body of the idealized kernel run symbolically at a point whose column-tile coordinate is 7.
-/
import proofs.«158876_j63264868270602_2_alg».proof.Proof.KI.RunMid

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE LAST COLUMN TILE (column coordinate 7): the accumulator enters at `xs`, this tile's sums are added, and the 128
    lanes of each row are summed into the row-sum buffer, which enters at anything and leaves holding the pieces `L2`. -/
noncomputable def runLast (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : isLast i)
    (x0 : Vec F S2048x256 .bf16) (x1 : Vec F S1024x256 .bf16) (xs : Vec F S2048x128 .f32) :
    Σ' (L2 : List (View.Piece (Elt F) S2048x1 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0_ntxent_kernel i arg2 harg2 arg3 harg3 arg4 harg4 arg5 harg5) K } := by
  refine ⟨?_, ?_, fun E K => ?run⟩
  case run =>
    simp only [cc0_ntxent_kernel_eq_skeleton]; unfold cc0_ntxent_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Rows

end
-- ==== Proof.KI.Data.lean ====
/-
  What the idealized kernel's buffers hold, point by point.  The 32 points are 4 row tiles times 8 column tiles.  At
  column tile 0 the accumulator is zeroed; at every column tile the tile's masked exponentials, folded from 1024
  columns to 128 lanes, are added to it; at column tile 7 its 128 lanes are summed per row into the row-sum block,
  which is the only point that stores it and the only point that writes it back.  The accumulator is therefore a
  function of the points since the last column tile 0, and the proof data carries it in the region's invariant.
-/
import proofs.«158876_j63264868270602_2_alg».proof.Proof.KI.RunLast

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves

The runs found, by unification, the list of pieces each buffer ends with.  Read back over anything, a list that tiles
the buffer gives its contents. -/

/-- First tile: nothing is stored into the row sums (a placeholder nothing consults). -/
def outFirst (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : isFirst i) (hc1 : ¬isLast i) (x0 : Vec F S2048x256 .bf16) (x1 : Vec F S1024x256 .bf16) : Vec F S2048x1 .f32 :=
  outV.read (Elt F) (outV.writes (Elt F) outV.junk (runFirst c i arg2 harg2 arg3 harg3 arg4 harg4 arg5 harg5 hc0 hc1 x0 x1).1)
theorem accFirst_cover (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : isFirst i) (hc1 : ¬isLast i) (x0 : Vec F S2048x256 .bf16) (x1 : Vec F S1024x256 .bf16) (y : S2048x128.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S2048x128.size (by sl_kernel_rfl) y
/-- First tile: the accumulator after it. -/
def accFirst (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : isFirst i) (hc1 : ¬isLast i) (x0 : Vec F S2048x256 .bf16) (x1 : Vec F S1024x256 .bf16) : Vec F S2048x128 .f32 :=
  accV.read (Elt F) (accV.writes (Elt F) accV.junk (runFirst c i arg2 harg2 arg3 harg3 arg4 harg4 arg5 harg5 hc0 hc1 x0 x1).2.1)

def outMid (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : ¬isLast i) (x0 : Vec F S2048x256 .bf16) (x1 : Vec F S1024x256 .bf16) (xs : Vec F S2048x128 .f32) : Vec F S2048x1 .f32 :=
  outV.read (Elt F) (outV.writes (Elt F) outV.junk (runMid c i arg2 harg2 arg3 harg3 arg4 harg4 arg5 harg5 hc0 hc1 x0 x1 xs).1)
theorem accMid_cover (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : ¬isLast i) (x0 : Vec F S2048x256 .bf16) (x1 : Vec F S1024x256 .bf16) (xs : Vec F S2048x128 .f32) (y : S2048x128.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S2048x128.size (by sl_kernel_rfl) y
def accMid (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : ¬isLast i) (x0 : Vec F S2048x256 .bf16) (x1 : Vec F S1024x256 .bf16) (xs : Vec F S2048x128 .f32) : Vec F S2048x128 .f32 :=
  accV.read (Elt F) (accV.writes (Elt F) accV.junk (runMid c i arg2 harg2 arg3 harg3 arg4 harg4 arg5 harg5 hc0 hc1 x0 x1 xs).2.1)

theorem outLast_cover (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : isLast i) (x0 : Vec F S2048x256 .bf16) (x1 : Vec F S1024x256 .bf16) (xs : Vec F S2048x128 .f32) (y : S2048x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x1.size (by sl_kernel_rfl) y
/-- Last tile: the 2048 row sums. -/
def outLast (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : isLast i) (x0 : Vec F S2048x256 .bf16) (x1 : Vec F S1024x256 .bf16) (xs : Vec F S2048x128 .f32) : Vec F S2048x1 .f32 :=
  outV.read (Elt F) (outV.writes (Elt F) outV.junk (runLast c i arg2 harg2 arg3 harg3 arg4 harg4 arg5 harg5 hc0 hc1 x0 x1 xs).1)
theorem accLast_cover (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : isLast i) (x0 : Vec F S2048x256 .bf16) (x1 : Vec F S1024x256 .bf16) (xs : Vec F S2048x128 .f32) (y : S2048x128.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x128.size (by sl_kernel_rfl) y
def accLast (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : isLast i) (x0 : Vec F S2048x256 .bf16) (x1 : Vec F S1024x256 .bf16) (xs : Vec F S2048x128 .f32) : Vec F S2048x128 .f32 :=
  accV.read (Elt F) (accV.writes (Elt F) accV.junk (runLast c i arg2 harg2 arg3 harg3 arg4 harg4 arg5 harg5 hc0 hc1 x0 x1 xs).2.1)

/-! ## Point by point -/

/-- What the three kinds of point leave (row sums, accumulator), at point `t`'s memrefs and blocks. -/
def firstAt (c : Dev nD) (t : Fin cfg0.N) (h0 : t.val % 8 = 0) : Vec F S2048x1 .f32 × Vec F S2048x128 .f32 :=
  (outFirst c (grid0.coords t) (rowM t) (rowM_whole t) (colM t) (colM_whole t) (outM t) (outM_whole t) accM (Memref.isWhole_whole _) ((isFirst_iff t).mpr h0) (fun h => by have := (isLast_iff t).mp h; omega) (iblk m c 0 t) (iblk m c 1 t),
   accFirst c (grid0.coords t) (rowM t) (rowM_whole t) (colM t) (colM_whole t) (outM t) (outM_whole t) accM (Memref.isWhole_whole _) ((isFirst_iff t).mpr h0) (fun h => by have := (isLast_iff t).mp h; omega) (iblk m c 0 t) (iblk m c 1 t))
def midAt (c : Dev nD) (t : Fin cfg0.N) (h0 : ¬t.val % 8 = 0) (h1 : ¬t.val % 8 = 7) (xs : Vec F S2048x128 .f32) : Vec F S2048x1 .f32 × Vec F S2048x128 .f32 :=
  (outMid c (grid0.coords t) (rowM t) (rowM_whole t) (colM t) (colM_whole t) (outM t) (outM_whole t) accM (Memref.isWhole_whole _) (fun h => h0 ((isFirst_iff t).mp h)) (fun h => h1 ((isLast_iff t).mp h)) (iblk m c 0 t) (iblk m c 1 t) xs,
   accMid c (grid0.coords t) (rowM t) (rowM_whole t) (colM t) (colM_whole t) (outM t) (outM_whole t) accM (Memref.isWhole_whole _) (fun h => h0 ((isFirst_iff t).mp h)) (fun h => h1 ((isLast_iff t).mp h)) (iblk m c 0 t) (iblk m c 1 t) xs)
def lastAt (c : Dev nD) (t : Fin cfg0.N) (h0 : ¬t.val % 8 = 0) (h1 : t.val % 8 = 7) (xs : Vec F S2048x128 .f32) : Vec F S2048x1 .f32 × Vec F S2048x128 .f32 :=
  (outLast c (grid0.coords t) (rowM t) (rowM_whole t) (colM t) (colM_whole t) (outM t) (outM_whole t) accM (Memref.isWhole_whole _) (fun h => h0 ((isFirst_iff t).mp h)) ((isLast_iff t).mpr h1) (iblk m c 0 t) (iblk m c 1 t) xs,
   accLast c (grid0.coords t) (rowM t) (rowM_whole t) (colM t) (colM_whole t) (outM t) (outM_whole t) accM (Memref.isWhole_whole _) (fun h => h0 ((isFirst_iff t).mp h)) ((isLast_iff t).mpr h1) (iblk m c 0 t) (iblk m c 1 t) xs)

/-- THE ACCUMULATION.  After point `n`: the first tile of a row tile starts over; every other tile continues from what
    the point before left in the accumulator. -/
def stateAt (c : Dev nD) : (n : ℕ) → n < cfg0.N → Vec F S2048x1 .f32 × Vec F S2048x128 .f32
  | 0, hn => firstAt m c ⟨0, hn⟩ (Nat.zero_mod _)
  | n + 1, hn =>
    if h0 : (n + 1) % 8 = 0 then firstAt m c ⟨n + 1, hn⟩ h0
    else if h1 : (n + 1) % 8 = 7 then lastAt m c ⟨n + 1, hn⟩ h0 h1 (stateAt c n (Nat.lt_of_succ_lt hn)).2
    else midAt m c ⟨n + 1, hn⟩ h0 h1 (stateAt c n (Nat.lt_of_succ_lt hn)).2

theorem stateAt_first (c : Dev nD) (t : Fin cfg0.N) (h0 : t.val % 8 = 0) : stateAt m c t.val t.isLt = firstAt m c t h0 := by
  obtain ⟨n, hn⟩ := t
  cases n with
  | zero => rfl
  | succ n => exact dif_pos h0

theorem stateAt_mid (c : Dev nD) (t : Fin cfg0.N) (h0 : ¬t.val % 8 = 0) (h1 : ¬t.val % 8 = 7) :
    stateAt m c t.val t.isLt = midAt m c t h0 h1 (stateAt m c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem stateAt_last (c : Dev nD) (t : Fin cfg0.N) (h0 : ¬t.val % 8 = 0) (h1 : t.val % 8 = 7) :
    stateAt m c t.val t.isLt = lastAt m c t h0 h1 (stateAt m c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The invariant before point `n`: the accumulator at anything before the first point, afterwards at what the point
    before left in it. -/
def PhiS (c : Dev nD) : (n : ℕ) → n ≤ cfg0.N → sProp 𝕄
  | 0, _ => iprop(∃ d, owns (c : Thread nD τ) accM fullShare d)
  | n + 1, hn => owns (c : Thread nD τ) accM fullShare (stateAt m c n hn).2

theorem PhiS_succ (c : Dev nD) (n : ℕ) (hn : n < cfg0.N) :
    PhiS m c (n + 1) hn = owns (c : Thread nD τ) accM fullShare (stateAt m c n hn).2 := rfl
theorem PhiS_pos (c : Dev nD) (n : ℕ) (h : n ≤ cfg0.N) (hz : n ≠ 0) :
    PhiS m c n h = owns (c : Thread nD τ) accM fullShare (stateAt m c (n - 1) (by omega)).2 := by
  cases n with
  | zero => exact absurd rfl hz
  | succ n => rfl
theorem PhiS_any (c : Dev nD) (n : ℕ) (h : n ≤ cfg0.N) : PhiS m c n h ⊢ iprop(∃ d, owns (c : Thread nD τ) accM fullShare d) := by
  cases n with
  | zero => exact .rfl
  | succ n => rw [PhiS_succ]; iintro H; iexists _; iexact H

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by dsimp only [dats]
theorem q0 (c : Dev nD) : (dats m 0 c).q 0 = fullShare.left := by dsimp only [dats]
theorem q1 (c : Dev nD) : (dats m 0 c).q 1 = fullShare.right := by dsimp only [dats]
theorem Phi_castSucc (c : Dev nD) (t : Fin cfg0.N) : (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stateAt m c t.val t.isLt).1 := by dsimp only [dats]
theorem before0 (c : Dev nD) (t : Fin cfg0.N) (d) : (dats m 0 c).before 0 t d = iblk m c 0 t :=
  rowTile_of m (dats m 0 c) (A_eq m c 0) (after0 m c) t d
theorem before1 (c : Dev nD) (t : Fin cfg0.N) (d) : (dats m 0 c).before 1 t d = iblk m c 1 t :=
  colTile_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (rowM t) fullShare ((dats m 0 c).before 0 t d))
    ∗ (∃ d, owns (c : Thread nD τ) (colM t) fullShare ((dats m 0 c).before 1 t d))
    ∗ (∃ d, owns (c : Thread nD τ) (outM t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 4800000 in
/-- The body at any point.  The tiles' buffers hold their blocks; the point number modulo 8 says which kind of point it
    is; the invariant hands the body the accumulator as the point before left it and takes it back as this point leaves
    it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (rowM t) fullShare ((dats m 0 c).after 0 t) from by
    unfold Dat.leavesExact; rw [live0 t], after0]
  rw [show (dats m 0 c).leavesExact 1 t = owns (c : Thread nD τ) (colM t) fullShare ((dats m 0 c).after 1 t) from by
    unfold Dat.leavesExact; rw [live1 t], after1]
  rw [Phi_castSucc m c t]
  by_cases h0 : t.val % 8 = 0
  · have h1 : ¬t.val % 8 = 7 := by omega
    rw [Dat.leavesExact_idle (dats m 0 c) 2 t (idle2 t (fun h => h1 ((isLast_iff t).mp h))) (noFlush2 t (fun h => h1 ((isLast_iff t).mp h)))]
    rw [stateAt_first m c t h0]
    unfold firstAt accFirst; (try dsimp only)
    iintro ⟨HS, Ho, ⟨%d0, H0⟩, ⟨%d1, H1⟩, ⟨%d2, H2⟩⟩
    iapply ((runFirst c (grid0.coords t) _ _ _ _ _ _ _ _ ((isFirst_iff t).mpr h0) (fun h => h1 ((isLast_iff t).mp h)) (iblk m c 0 t) (iblk m c 1 t)).2.2 _ Set.univ _)
    isplitl [H0]; · iexact H0
    isplitl [H1]; · iexact H1
    isplitl [H2]; · iexact H2
    isplitl [HS]; · iapply (PhiS_any m c t.val _); iexact HS
    iintro ⟨H0, H1, H2, ⟨%es, HS⟩⟩
    isplitl [HS]
    · unfold owns; iexists _; isplitr
      swap; · iexact HS
      ipureintro; exact View.read_writes_of_cover _ _ _ _ _ (accFirst_cover c _ _ _ _ _ _ _ _ _ _ _ _ _)
    isplitl [Ho]; · iexact Ho
    isplitl [H0]; · iexact H0
    isplitl [H1]; · iexact H1
    iexists _; iexact H2
  · have hz : t.val ≠ 0 := fun e => h0 (by rw [e])
    rw [PhiS_pos m c _ _ hz]
    by_cases h1 : t.val % 8 = 7
    · rw [show (dats m 0 c).leavesExact 2 t = owns (c : Thread nD τ) (outM t) fullShare ((dats m 0 c).after 2 t) from by
        unfold Dat.leavesExact; rw [live2 t ((isLast_iff t).mpr h1)], after2]
      rw [stateAt_last m c t h0 h1]
      unfold lastAt outLast accLast; (try dsimp only)
      iintro ⟨HS, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS]
      · unfold owns; iexists _; isplitr
        swap; · iexact HS
        ipureintro; exact View.read_writes_of_cover _ _ _ _ _ (accLast_cover c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · rw [Dat.leavesExact_idle (dats m 0 c) 2 t (idle2 t (fun h => h1 ((isLast_iff t).mp h))) (noFlush2 t (fun h => h1 ((isLast_iff t).mp h)))]
      rw [stateAt_mid m c t h0 h1]
      unfold midAt accMid; (try dsimp only)
      iintro ⟨HS, Ho, ⟨%d0, H0⟩, ⟨%d1, H1⟩, ⟨%d2, H2⟩⟩
      iapply ((runMid c (grid0.coords t) _ _ _ _ _ _ _ _ (fun h => h0 ((isFirst_iff t).mp h)) (fun h => h1 ((isLast_iff t).mp h)) (iblk m c 0 t) (iblk m c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS]
      · unfold owns; iexists _; isplitr
        swap; · iexact HS
        ipureintro; exact View.read_writes_of_cover _ _ _ _ _ (accMid_cover c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Rows

end
-- ==== Proof.KI.Shared.lean ====
/-
  The row-tile window and the column-tile window of the kernel stage blocks of ONE array, the normalized matrix: the
  similarity of row n and row m needs both.  Neither window writes it, so each can hold half of its share for the
  whole region.  This module says how the two buffers behind the three windows, held whole, become the windows'
  arrays at those shares, and back.
-/
import proofs.«158876_j63264868270602_2_alg».proof.Proof.Gen.KernelIdeal.Launch
import proofs.«158876_j63264868270602_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The buffers behind the three windows are two: the normalized matrix (read by the row-tile window and by the
    column-tile window) and the row sums. -/
theorem arrRef_image : (Finset.univ.image (Pipeline.arrRef spec0) : Finset (Ref sig .tc)) = {main_v17, main_v25} := by decide

/-- ONE MATRIX, TWO READERS.  With the row-tile window holding the left half of the matrix's share and the column-tile
    window the right half, the three windows' arrays at contents `Fw` are exactly the two buffers held whole at `W`,
    whenever `Fw` reads `W` at each window's buffer: the two halves of the matrix's share make the whole, and the
    whole splits into them. -/
theorem arrays_iff (c : Dev nD) (dat : Dat τ (Elt F) Unit ℕ (UR sig nD τ) ℕ cfg0 c)
    (hq0 : dat.q 0 = fullShare.left) (hq1 : dat.q 1 = fullShare.right)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    (dat.arrays Fw : sProp 𝕄) ⊣⊢ Pipeline.arrBufs spec0 c W := by
  unfold Dat.arrays Pipeline.arrBufs
  rw [bigSep_W0, arrRef_image, bigSep_insert (by decide), bigSep_singleton]
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_pos (by decide)]
  rw [s0, s1, s2, hF 0, hF 1, hF 2, (arr_whole0 0).set_eq_univ, (arr_whole0 2).set_eq_univ]
  show (iprop(((c.tc : Thread nD τ).loc main_v17 ↦{fullShare.left} W main_v17) ∗ ((c.tc : Thread nD τ).loc main_v17 ↦{fullShare.right} W main_v17)
      ∗ ((c.tc : Thread nD τ).loc main_v25 ↦{fullShare} W main_v25)) : sProp 𝕄)
    ⊣⊢ iprop(((c.tc : Thread nD τ).loc main_v17 ↦{fullShare} W main_v17) ∗ ((c.tc : Thread nD τ).loc main_v25 ↦{fullShare} W main_v25))
  constructor
  · iintro ⟨H0, H1, H2⟩
    isplitl [H0 H1]
    · iapply (pointsTo_share (PosShare.mem_left_op_right fullShare)).2
      isplitl [H0] <;> iassumption
    · iexact H2
  · iintro ⟨H01, H2⟩
    ihave H := (pointsTo_share (PosShare.mem_left_op_right fullShare)).1 $$ [H01]
    · iexact H01
    icases H with ⟨H0, H1⟩
    isplitl [H0]; · iexact H0
    isplitl [H1]; · iexact H1
    iexact H2

end Cert.KernelIdeal.Rows

end
-- ==== Proof.KI.Run.lean ====
/-
  The idealized kernel's program runs: every weakly fair execution terminates, nothing faults, and every buffer's final
  contents are named.  The region reads the normalized matrix through two windows holding half of its share each
  (module Shared); around it the program is host operations, so at entry the two buffers behind the windows are carved
  out of the unscoped buffers and split, and at exit — neither half having been written — they are put back together
  and the seven operations after the region run over all unscoped buffers at once.
-/
import proofs.«158876_j63264868270602_2_alg».proof.Proof.KI.Data
import proofs.«158876_j63264868270602_2_alg».proof.Proof.KI.Shared

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents at the region's exit and at the program's end -/

/-- Every buffer when the region is left: the row sums as the 32 points' write-backs leave them, everything else as
    the region found it (the normalized matrix is only read). -/
def Vexit (c : Dev nD) : Valuation τ sig (Elt F) :=
  Function.update (V0 m c) (Proc.devRef .tc main_v25) ((dats m 0 c).arrAt 2 cfg0.N)

/-- Every buffer when the program ends: the seven operations after the region applied to that. -/
def Vend (c : Dev nD) : Valuation τ sig (Elt F) := StableHlo.after hostOps1 (Vexit m c)

theorem Vexit_sums (c : Dev nD) : Vexit m c (Proc.devRef .tc main_v25) = (dats m 0 c).arrAt 2 cfg0.N := by
  unfold Vexit; rw [Function.update_self]

theorem Vexit_of_ne (c : Dev nD) (b : Ref sig .tc) (hb : b ≠ main_v25) : Vexit m c (Proc.devRef .tc b) = V m c b := by
  unfold Vexit; rw [Function.update_of_ne (fun e => hb (Proc.devRef_injective _ e))]

/-- At exit each window's array is what `Vexit` says of its buffer: an input's array was never written. -/
theorem arrAt_exit (c : Dev nD) (w : Fin cfg0.W) :
    (dats m 0 c).arrAt w cfg0.N = Vexit m c (Proc.devRef .tc (Pipeline.arrRef spec0 w)) := by
  fin_cases w
  · exact ((dats m 0 c).arrAt_in 0 rfl _).trans ((A_eq m c 0).trans (Vexit_of_ne m c _ (by decide)).symm)
  · exact ((dats m 0 c).arrAt_in 1 rfl _).trans ((A_eq m c 1).trans (Vexit_of_ne m c _ (by decide)).symm)
  · exact (Vexit_sums m c).symm

/-- The operations after the region write neither the normalized matrix nor the row sums. -/
theorem tail_keeps (b : Ref sig .tc) (hb : b = main_v17 ∨ b = main_v25) :
    ∀ op ∈ (hostOps1 : List (HloOp τ sig (Elt F))), Proc.devRef .tc b ∉ op.writes := by
  intro op hop
  simp only [hostOps1, List.mem_cons, List.mem_nil_iff, or_false] at hop
  rcases hb with rfl | rfl <;> rcases hop with rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem arrAt_end (c : Dev nD) (w : Fin cfg0.W) :
    (dats m 0 c).arrAt w cfg0.N = Vend m c (Proc.devRef .tc (Pipeline.arrRef spec0 w)) := by
  unfold Vend
  rw [StableHlo.after_of_forall_not_mem _ _ (tail_keeps (Pipeline.arrRef spec0 w) (by fin_cases w <;> simp [Pipeline.arrRef]))]
  exact arrAt_exit m c w

/-- Off the two buffers behind the windows, `Vexit` is the entry contents. -/
theorem rest_exit (c : Dev nD) :
    (Pipeline.unscopedRest spec0 c (V m c) : sProp 𝕄) = Pipeline.unscopedRest spec0 c (fun b => Vexit m c (Proc.devRef .tc b)) := by
  unfold Pipeline.unscopedRest
  refine bigSep_congr fun b hb => ?_
  dsimp only
  rw [Vexit_of_ne m c b fun e => (Finset.mem_sdiff.mp hb).2 (Finset.mem_image.mpr ⟨2, Finset.mem_univ _, e.symm⟩)]

/-- The windows' arrays at `Fw` and the two buffers held whole at `W` are one assertion when `Fw` reads `W`. -/
theorem arrays_eq_bufs (c : Dev nD) (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    ((dats m 0 c).arrays Fw : sProp 𝕄) = Pipeline.arrBufs spec0 c W :=
  equiv_iff.mp ⟨(arrays_iff c (dats m 0 c) (q0 m c) (q1 m c) W Fw hF).1, (arrays_iff c (dats m 0 c) (q0 m c) (q1 m c) W Fw hF).2⟩

/-! ## The run -/

set_option backward.isDefEq.respectTransparency.types false in
/-- THE RUN.  From any memory with the counters at zero every weakly fair execution of the program terminates without a
    fault; at the end the two buffers behind the windows hold what the write-backs left, and every other unscoped
    buffer — the arguments and the result among them — holds `Vend`. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Vend m c (Proc.devRef .tc b)) := by
  classical
  refine Pipeline.θ_run_region_noSem_pf_tail (fun p => (cfgs p).toPCfg) (fun p => (cfgs p).toPCfg_adm) (dats m) () cellOf_inj (0 : Fin 1) winFacts₀0
    (Pipeline.PreFacts.none _) emb₁ defs₀ Variants.none m ρ main (fun _ => Pipeline.chain [StableHlo.seq hostOps1])
    (fun c => (body_obligation m c).loose) block_pos0 arr_whole0 stage_whole0 (fun _ _ => rfl)
    (initOf (Pipeline.cells cfgs cellOf_inj) (Pipeline.launchToks cfgs cellOf_inj)) .rfl (V m) (hmain m Variants.none)
    (fun c => ((arrays_iff c (dats m 0 c) (q0 m c) (q1 m c) (V m c) (fun w => (dats m 0 c).arrAt w 0) (A_eq m c)).2))
    (fun _ k => k.elim0)
    (fun _ => iprop(emp)) (fun _ => iprop(emp))
    (fun c => Pipeline.unscopedRest spec0 c (V m c))
    (fun c => Pipeline.unscopedRest spec0 c (fun b => Vend m c (Proc.devRef .tc b)))
    (fun c => ?hX) (fun c => ?hin) (fun c => ?hout) (fun c Q' => ?htail)
    (fun c s => ∀ b ∈ Pipeline.restRefs sig spec0, s.mem ((c.tc : Thread nD τ).loc b) = Vend m c (Proc.devRef .tc b))
    (fun c s' => ?hY) (fun s h c => ⟨(h c).1, (h c).2.2⟩)
  case hX =>
    rw [Pipeline.unscopedRestP_none]
    iintro H; isplitr; · iempintro
    iexact H
  case hin =>
    rw [show (dats m 0 c).Φ 0 = iprop(∃ d, owns (c : Thread nD τ) accM fullShare d) from rfl, scoped_eq]
    iintro ⟨-, -, H⟩; iexact H
  case hout =>
    rw [show (dats m 0 c).Φ (Fin.last cfg0.N) = PhiS m c cfg0.N (le_refl _) from rfl, scoped_eq]
    iintro H; isplitr; · iempintro
    iapply (PhiS_any m c _ _); iexact H
  case hY =>
    iintro ⟨-, HU, HSI⟩
    unfold Pipeline.unscopedRest
    imodintro
    iapply (pointsTo_read_all (Pipeline.restRefs sig spec0) (fun b => (c.tc : Thread nD τ).loc b) (fun b => Vend m c (Proc.devRef .tc b)) s')
    isplitl [HU] <;> iassumption
  case htail =>
    have hW : (StableHlo.held (c.tc : Thread nD τ) (Pipeline.ucRefs τ sig) (Vexit m c) : sProp 𝕄)
        = iprop((dats m 0 c).arrays ((dats m 0 c).arrAt · cfg0.N) ∗ Pipeline.unscopedRest spec0 c (V m c)) := by
      rw [← Pipeline.unscopedBufs_held (Ix := Unit) (Name := ℕ) (U := UR sig nD τ) (Lvl := ℕ) c (Vexit m c),
        Pipeline.unscopedBufs_split₀ cfgs 0 winFacts₀0.arr_unscoped c, rest_exit m c]
      rw [arrays_eq_bufs m c (fun b => Vexit m c (Proc.devRef .tc b)) (fun w => (dats m 0 c).arrAt w cfg0.N) (arrAt_exit m c)]
    have hW' : (StableHlo.held (c.tc : Thread nD τ) (Pipeline.ucRefs τ sig) (Vend m c) : sProp 𝕄)
        = iprop((dats m 0 c).arrays ((dats m 0 c).arrAt · cfg0.N) ∗ Pipeline.unscopedRest spec0 c (fun b => Vend m c (Proc.devRef .tc b))) := by
      rw [← Pipeline.unscopedBufs_held (Ix := Unit) (Name := ℕ) (U := UR sig nD τ) (Lvl := ℕ) c (Vend m c),
        Pipeline.unscopedBufs_split₀ cfgs 0 winFacts₀0.arr_unscoped c]
      rw [arrays_eq_bufs m c (fun b => Vend m c (Proc.devRef .tc b)) (fun w => (dats m 0 c).arrAt w cfg0.N) (arrAt_end m c)]
    rw [← List.append_nil ([StableHlo.seq hostOps1]), ← hW]
    iintro ⟨Hk, Hb⟩
    iapply (Pipeline.wp_seqs_then (fun p => (cfgs p).toPCfg) defs₀ Variants.none c (Pipeline.ucRefs τ sig) [] [hostOps1]
      (fun ops ho op h => by
        simp only [List.mem_cons, List.mem_nil_iff, _root_.or_false] at ho; subst ho
        exact Pipeline.sub_ucRefs op ((List.forall_iff_forall_mem.mp hostOps1_sub) op h))
      (fun ops ho op h => by
        simp only [List.mem_cons, List.mem_nil_iff, _root_.or_false] at ho; subst ho
        exact (List.forall_iff_forall_mem.mp hostOps1_fresh) op h) (Vexit m c)) $$ Hb
    iintro Hb
    rw [Pipeline.chain_nil, wp_pure]
    rw [show StableHlo.after ([hostOps1] : List (List (HloOp τ sig (Elt F)))).flatten (Vexit m c) = Vend m c from by
      simp only [List.flatten_cons, List.flatten_nil, List.append_nil]; rfl, hW']
    imodintro
    iapply Hk
    icases Hb with ⟨-, H⟩
    iexact H

/-- info: 'Cert.KernelIdeal.Rows.run_main' depends on axioms: [propext, Classical.choice, Quot.sound] -/
#guard_msgs in #print axioms run_main

end Cert.KernelIdeal.Rows

end
-- ==== Proof.KI.Frame.lean ====
/-
  The frame of the idealized kernel's program: the run of module Run, read at the two argument buffers.  Neither is
  a window's array and no host operation writes one, so each ends at its launch contents.
-/
import proofs.«158876_j63264868270602_2_alg».proof.Proof.KI.Run

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No operation of the program writes its first argument: at the end it is what the launch found. -/
theorem Vend_arg0 (c : Dev nD) : Vend m c (Proc.devRef .tc main_arg0) = m ((c.tc : Thread nD τ).loc main_arg0) := by
  unfold Vend hostOps1
  after_results
  unfold Vexit
  rw [Function.update_of_ne (StableHlo.devRef_ne_of_ne (by decide))]
  show StableHlo.after (List.flatten [hostOps0]) (fun b => m (c, b)) (Proc.devRef .tc main_arg0) = _
  simp only [hostOps0, List.flatten_cons, List.flatten_nil, List.append_nil]
  after_results

/-- Nor its second. -/
theorem Vend_arg1 (c : Dev nD) : Vend m c (Proc.devRef .tc main_arg1) = m ((c.tc : Thread nD τ).loc main_arg1) := by
  unfold Vend hostOps1
  after_results
  unfold Vexit
  rw [Function.update_of_ne (StableHlo.devRef_ne_of_ne (by decide))]
  show StableHlo.after (List.flatten [hostOps0]) (fun b => m (c, b)) (Proc.devRef .tc main_arg1) = _
  simp only [hostOps0, List.flatten_cons, List.flatten_nil, List.append_nil]
  after_results

theorem arg0_rest : main_arg0 ∈ Pipeline.restRefs sig spec0 := by decide
theorem arg1_rest : main_arg1 ∈ Pipeline.restRefs sig spec0 := by decide

/-- THE FRAME: the program runs to its end, faults nowhere, and both arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 _ arg0_rest).trans (Vend_arg0 m c), ((h c).2 _ arg1_rest).trans (Vend_arg1 m c)⟩) (run_main m ρ)

end Cert.KernelIdeal.Rows

end
-- ==== Proof.KI.PayAt.lean ====
/-
  The body's arithmetic read at one accumulator entry, over the extended reals.

  One column tile contributes to accumulator entry (r, l) the sum, over the 8 groups g of 128 columns, of the masked
  exponential at tile column 128 g + l: the exponential of (row r of the row tile) · (row 128 g + l of the column tile)
  times the reciprocal temperature, or zero where the two rows are the same row of the matrix.  At the last tile the
  row sum is the sum of a row's 128 accumulator entries.
-/
import proofs.«158876_j63264868270602_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.PayAt

open Idealize.ShloMosaic Idealize.ShloMosaic.ValueIdx Cert.KernelIdeal Cert.KernelIdeal.Gen

/-- A sum over the 8 column groups of a [2048, 8, 128] array, at row r and lane l. -/
theorem laneFold (src : FVec Ideal S2048x8x128 .f32) (hφ : FKind.Formats .f32) (hacc : (0x00000000#32 : BitVec 32) = 0x00000000#32)
    (r : Fin 2048) (l : Fin 128) :
    multiReduction .add [1] S2048x128 src 0x00000000#32 reduces_S2048x8x128_S2048x128 hφ hacc (ix2 r l) = ∑ g : Fin 8, src (ix3 r g l) :=
  (Ideal.multiReduction_add_single src 0x00000000#32 reduces_S2048x8x128_S2048x128 hφ hacc (ix2 r l)).trans
    (Finset.sum_congr rfl fun g _ => congrArg src (funext fun a => Fin.ext (by
      match a with
      | ⟨0, _⟩ => rfl
      | ⟨1, _⟩ => rfl
      | ⟨2, _⟩ => rfl)))

/-- A sum over the 128 lanes of a [2048, 128] array, at row r. -/
theorem rowFold (src : FVec Ideal S2048x128 .f32) (hφ : FKind.Formats .f32) (hacc : (0x00000000#32 : BitVec 32) = 0x00000000#32)
    (r : Fin 2048) :
    multiReduction .add [1] S2048 src 0x00000000#32 reduces_S2048x128_S2048 hφ hacc (ix1 r) = ∑ l : Fin 128, src (ix2 r l) :=
  (Ideal.multiReduction_add_single src 0x00000000#32 reduces_S2048x128_S2048 hφ hacc (ix1 r)).trans
    (Finset.sum_congr rfl fun l _ => congrArg src (funext fun a => Fin.ext (by
      match a with
      | ⟨0, _⟩ => rfl
      | ⟨1, _⟩ => rfl)))

/-- Tile column 128 g + l. -/
abbrev col (g : Fin 8) (l : Fin 128) : Fin 1024 := ⟨128 * g.val + l.val, by have := g.isLt; have := l.isLt; omega⟩

/-- The tile viewed as 8 groups of 128 columns: entry (r, g, l) is entry (r, 128 g + l). -/
theorem regroup {α : Type} (v : S2048x1024.Idx → α) (r : Fin 2048) (g : Fin 8) (l : Fin 128) :
    shapeCast S2048x8x128 v shapeCasts_S2048x1024_S2048x8x128 (ix3 r g l) = v (ix2 r (col g l)) :=
  shapeCast_apply v shapeCasts_S2048x1024_S2048x8x128 (ix3 r g l) (ix2 r (col g l)) (by
    rw [Shape.rowMajor_val_two, Shape.rowMajor_val_three]
    show r.val * 1024 + (128 * g.val + l.val) = (r.val * 8 + g.val) * 128 + l.val
    omega)

/-- The row sums as a column: entry (r, 0) is entry r. -/
theorem column {α : Type} (v : S2048.Idx → α) (r : Fin 2048) (z : Fin 1) :
    shapeCast S2048x1 v shapeCasts_S2048_S2048x1 (ix2 r z) = v (ix1 r) :=
  shapeCast_apply v shapeCasts_S2048_S2048x1 (ix2 r z) (ix1 r) (by
    rw [Shape.rowMajor_val_two, Shape.rowMajor_val_one]
    show r.val = r.val * 1 + z.val
    have := z.isLt; omega)

/-- The tile product at (r, q): row r of the row tile against row q of the column tile. -/
theorem tileDot (x0 : FVec Ideal S2048x256 .bf16) (x1 : FVec Ideal S1024x256 .bf16) (r : Fin 2048) (q : Fin 1024) :
    matmul dot_S2048x256_S1024x256_S2048x1024_1_1_0_0_n_n none x0 x1 (constant S2048x1024 .f32 0x00000000#32) (ix2 r q)
      = ∑ k : Fin 256, x0 (ix2 r k) * x1 (ix2 q k) := by
  simp only [matmul]
  rw [Ideal.matmul_constant_zero_apply, ← Equiv.sum_comp (ValueIdx.contrEquiv1 dot_S2048x256_S1024x256_S2048x1024_1_1_0_0_n_n 256 rfl rfl).symm]
  refine Finset.sum_congr rfl fun k _ => ?_
  have hk := ValueIdx.contrEquiv1_symm_val dot_S2048x256_S1024x256_S2048x1024_1_1_0_0_n_n 256 rfl rfl k
  have el : dot_S2048x256_S1024x256_S2048x1024_1_1_0_0_n_n.lhsIdx (ix2 r q) ((ValueIdx.contrEquiv1 dot_S2048x256_S1024x256_S2048x1024_1_1_0_0_n_n 256 rfl rfl).symm k) = ix2 r k := funext fun a => Fin.ext (by
    match a with
    | ⟨0, _⟩ =>
      show (dot_S2048x256_S1024x256_S2048x1024_1_1_0_0_n_n.lhsIdx (ix2 r q) _ 0).val = r.val
      unfold DotDims.lhsIdx
      rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
      rfl
    | ⟨1, _⟩ => exact (dot_S2048x256_S1024x256_S2048x1024_1_1_0_0_n_n.lhsIdx_val_of_single rfl (ix2 r q) _).trans hk)
  have er : dot_S2048x256_S1024x256_S2048x1024_1_1_0_0_n_n.rhsIdx (ix2 r q) ((ValueIdx.contrEquiv1 dot_S2048x256_S1024x256_S2048x1024_1_1_0_0_n_n 256 rfl rfl).symm k) = ix2 q k := funext fun a => Fin.ext (by
    match a with
    | ⟨0, _⟩ =>
      show (dot_S2048x256_S1024x256_S2048x1024_1_1_0_0_n_n.rhsIdx (ix2 r q) _ 0).val = q.val
      unfold DotDims.rhsIdx
      rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
      rfl
    | ⟨1, _⟩ => exact (dot_S2048x256_S1024x256_S2048x1024_1_1_0_0_n_n.rhsIdx_val_of_single rfl (ix2 r q) _).trans hk)
  rw [el, er]

/-- The bit that says row `r` of row tile `i 0` and row `q` of column tile `i 1` are different rows of the matrix. -/
def differ (i : grid0.Coords) (r : Fin 2048) (q : Fin 1024) : BitVec 1 :=
  cmpi .ne (addi (broadcast S2048x1024 (Scalar.muli (BitVec.ofNat 32 (i 0).val) 2048#32)) (iota .tc S2048x1024 32 [0] iota_S2048x1024_d0_w32))
    (addi (broadcast S2048x1024 (Scalar.muli (BitVec.ofNat 32 (i 1).val) 1024#32)) (iota .tc S2048x1024 32 [1] iota_S2048x1024_d1_w32)) (ix2 r q)

/-- One masked exponential of the tile. -/
def tileE (i : grid0.Coords) (x0 : FVec Ideal S2048x256 .bf16) (x1 : FVec Ideal S1024x256 .bf16) (r : Fin 2048) (q : Fin 1024) : EReal :=
  Scalar.select (differ i r q)
    (Ideal.exp ((∑ k : Fin 256, x0 (ix2 r k) * x1 (ix2 q k)) * Named.named (F := Ideal) κ "inv_temperature" (φ := .f32) 0x41649249#32))
    (Ideal.ofBits .f32 0x00000000#32)

/-- THE ACCUMULATOR STEP at entry (r, l): what was there plus the 8 groups' masked exponentials at lane l. -/
theorem pay2_apply (i : grid0.Coords) (x0 : FVec Ideal S2048x256 .bf16) (x1 : FVec Ideal S1024x256 .bf16) (acc : FVec Ideal S2048x128 .f32)
    (r : Fin 2048) (l : Fin 128) :
    k0_pay2 (F := Ideal) i x0 x1 acc (ix2 r l) = acc (ix2 r l) + ∑ g : Fin 8, tileE i x0 x1 r (col g l) := by
  unfold k0_pay2
  simp only [shapeCast_self]
  refine (congrArg (acc (ix2 r l) + ·) (laneFold _ _ _ r l)).trans ?_
  refine congrArg (acc (ix2 r l) + ·) (Finset.sum_congr rfl fun g _ => ?_)
  refine (regroup _ r g l).trans ?_
  unfold tileE differ
  refine congrArg (Scalar.select _ · _) ?_
  show Ideal.exp ((matmul dot_S2048x256_S1024x256_S2048x1024_1_1_0_0_n_n none x0 x1 (constant S2048x1024 .f32 0x00000000#32) (ix2 r (col g l))) * _) = _
  rw [tileDot]
  rfl

/-- THE ROW SUM at row r: the 128 accumulator entries of the row. -/
theorem pay3_apply (acc : FVec Ideal S2048x128 .f32) (r : Fin 2048) (z : Fin 1) :
    k0_pay3 (F := Ideal) acc (ix2 r z) = ∑ l : Fin 128, acc (ix2 r l) := by
  unfold k0_pay3
  exact (column _ r z).trans (rowFold _ _ _ r)

/-- The zero block. -/
theorem pay1_apply (r : Fin 2048) (l : Fin 128) : k0_pay1 (F := Ideal) (ix2 r l) = 0 := by
  unfold k0_pay1
  simp only [shapeCast_self]
  exact Ideal.ofBits_zero_f32

end Cert.KernelIdeal.PayAt

end
-- ==== Proof.Consts.lean ====
/-
  The float words the two programs spell, as the extended reals they denote.  The reference divides the similarities by
  the f32 nearest to 0.07, which is the dyadic rational 9395241 / 2^27; its mask is built from the word for 1.
-/
import Idealize.ShloMosaic.PureOps.Ideal
import Idealize.ShloMosaic.PureOps.Ideal.Laws

noncomputable section

namespace Cert.Consts

open Idealize.ShloMosaic

/-- The reference's divisor: f32(0.07) = 9395241 / 134217728. -/
theorem ofBits_temperature : Ideal.ofBits .f32 0x3D8F5C29#32 = ((9395241 / 134217728 : ℝ) : EReal) := by
  simp [Ideal.ofBits, Ideal.ieee, -EReal.coe_mul]; norm_num

/-- The word for 1.0 denotes 1. -/
theorem ofBits_one : Ideal.ofBits .f32 0x3F800000#32 = 1 := by
  simp [Ideal.ofBits, Ideal.ieee, -EReal.coe_mul]; norm_num

/-- The exact reciprocal of the reference's divisor: 2^27 / 9395241.  The kernel's named constant denotes it. -/
def κv : EReal := ((134217728 / 9395241 : ℝ) : EReal)

/-- Dividing by the reference's divisor is multiplying by its exact reciprocal, on every extended real. -/
theorem div_temperature (x : EReal) : Ideal.div x (Ideal.ofBits .f32 0x3D8F5C29#32) = x * κv := by
  rw [ofBits_temperature, Ideal.div_coe (by norm_num : (9395241 / 134217728 : ℝ) ≠ 0)]
  show x * _ = x * ((134217728 / 9395241 : ℝ) : EReal)
  congr 2
  norm_num

/-- The same for the host's division as the programs spell it. -/
theorem host_div_temperature (s : Ideal .f32) :
    FloatOps.hostDivf (F := Ideal) s (FloatOps.ofBits .f32 0x3D8F5C29#32) = s * κv :=
  div_temperature s

end Cert.Consts

end
-- ==== Proof.KI.Tile.lean ====
/-
  One tile of the similarity matrix in terms of the normalized matrix Z as the region finds it.  At point t = 8 b + j the
  row tile is rows 2048 b … of Z and the column tile rows 1024 j … of Z, so the tile's entry (r, q) is the similarity of
  rows n = 2048 b + r and m = 1024 j + q; its masked exponential is 0 when n = m and exp (⟨Z n, Z m⟩ · 2^27/9395241)
  otherwise.
-/
import proofs.«158876_j63264868270602_2_alg».proof.Proof.KI.PayAt
import proofs.«158876_j63264868270602_2_alg».proof.Proof.KI.Setup
import Idealize.ShloMosaic.PureOps.IdealRules
import proofs.«158876_j63264868270602_2_alg».proof.Proof.Consts

set_option maxRecDepth 16384

noncomputable section

namespace Cert.KernelIdeal.Rows

open Idealize.ShloMosaic Idealize.ShloMosaic.TcCoe Idealize.SL.Sem Idealize.ShloMosaic.ValueIdx
open Cert.KernelIdeal Cert.KernelIdeal.Gen Cert.KernelIdeal.PayAt

variable (m : (ℓ : Loc nD τ sig) → Buf (Elt Ideal) ℓ)

/-- Point t of the 4 × 8 grid has row-tile coordinate t / 8 and column-tile coordinate t mod 8; -/
theorem coords_t : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- the row-tile window's block index there is (t / 8, 0) and the column-tile window's (t mod 8, 0). -/
theorem idx_tiles : ∀ t : Fin cfg0.N, win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, win0_0.index t (0 : Fin 2) = t.val / 8 ∧ win0_0.index t (1 : Fin 2) = 0
    ∧ win0_1.index t (0 : Fin 2) = t.val % 8 ∧ win0_1.index t (1 : Fin 2) = 0)

/-- The normalized matrix as the region finds it. -/
abbrev Zk (c : Dev nD) : S8192x256.Idx → EReal := V m c main_v17

/-- Row `2048 (t / 8) + r` of the matrix. -/
abbrev rowOf (t : Fin cfg0.N) (r : Fin 2048) : Fin 8192 :=
  ⟨2048 * (t.val / 8) + r.val, by have := r.isLt; have : t.val < 32 := lt_of_lt_of_eq t.isLt N_0; omega⟩
/-- Row `1024 (t mod 8) + q` of the matrix. -/
abbrev colOf (t : Fin cfg0.N) (q : Fin 1024) : Fin 8192 :=
  ⟨1024 * (t.val % 8) + q.val, by have := q.isLt; omega⟩

theorem rowTile_apply (c : Dev nD) (t : Fin cfg0.N) (r : Fin 2048) (k : Fin 256) :
    (iblk m c 0 t : Vec Ideal S2048x256 .bf16) (ix2 r k) = Zk m c (ix2 (rowOf t r) k) := by
  obtain ⟨e0, e1, -, -⟩ := idx_tiles t
  unfold iblk
  rw [View.read_apply]
  show V m c main_v17 _ = V m c main_v17 _
  congr 1
  funext a; apply Fin.ext
  match a with
  | ⟨0, _⟩ => show win0_0.index t (0 : Fin 2) * 2048 + 1 * r.val = 2048 * (t.val / 8) + r.val; rw [e0]; omega
  | ⟨1, _⟩ => show win0_0.index t (1 : Fin 2) * 256 + 1 * k.val = k.val; rw [e1]; omega

theorem colTile_apply (c : Dev nD) (t : Fin cfg0.N) (q : Fin 1024) (k : Fin 256) :
    (iblk m c 1 t : Vec Ideal S1024x256 .bf16) (ix2 q k) = Zk m c (ix2 (colOf t q) k) := by
  obtain ⟨-, -, e2, e3⟩ := idx_tiles t
  unfold iblk
  rw [View.read_apply]
  show V m c main_v17 _ = V m c main_v17 _
  congr 1
  funext a; apply Fin.ext
  match a with
  | ⟨0, _⟩ => show win0_1.index t (0 : Fin 2) * 1024 + 1 * q.val = 1024 * (t.val % 8) + q.val; rw [e2]; omega
  | ⟨1, _⟩ => show win0_1.index t (1 : Fin 2) * 256 + 1 * k.val = k.val; rw [e3]; omega

/-- Index words this small do not wrap: equality of the two 32-bit words is equality of the row numbers. -/
theorem word_eq (a r b q : ℕ) (ha : a < 4) (hr : r < 2048) (hb : b < 8) (hq : q < 1024) :
    (BitVec.ofNat 32 a * 2048#32 + BitVec.ofNat 32 r = BitVec.ofNat 32 b * 1024#32 + BitVec.ofNat 32 q) ↔ 2048 * a + r = 1024 * b + q := by
  rw [← BitVec.toNat_inj]
  simp only [BitVec.toNat_add, BitVec.toNat_mul, BitVec.toNat_ofNat]
  omega

/-- The mask bit is 0 exactly on the diagonal of the similarity matrix. -/
theorem differ_eq (t : Fin cfg0.N) (r : Fin 2048) (q : Fin 1024) :
    differ (grid0.coords t) r q = if rowOf t r = colOf t q then 0#1 else 1#1 := by
  obtain ⟨c0, c1⟩ := coords_t t
  have hN : t.val < 32 := lt_of_lt_of_eq t.isLt N_0
  unfold differ
  simp only [cmpi, addi, broadcast, IntOp.cmpi, IntOp.addi, Scalar.muli, IntOp.muli, c0, c1]
  rw [iota_single_apply .tc S2048x1024 32 0 iota_S2048x1024_d0_w32 (ix2 r q), iota_single_apply .tc S2048x1024 32 1 iota_S2048x1024_d1_w32 (ix2 r q)]
  show BitVec.ofBool (BitVec.ofNat 32 (t.val / 8) * 2048#32 + BitVec.ofNat 32 r.val != BitVec.ofNat 32 (t.val % 8) * 1024#32 + BitVec.ofNat 32 q.val) = _
  have key := word_eq (t.val / 8) r.val (t.val % 8) q.val (by omega) r.isLt (by omega) q.isLt
  by_cases h : rowOf t r = colOf t q
  · have hn : 2048 * (t.val / 8) + r.val = 1024 * (t.val % 8) + q.val := congrArg Fin.val h
    rw [if_pos h, key.mpr hn, bne_self_eq_false]; rfl
  · have hn : ¬(2048 * (t.val / 8) + r.val = 1024 * (t.val % 8) + q.val) := fun e => h (Fin.ext e)
    rw [if_neg h, bne_iff_ne.mpr (fun e => hn (key.mp e))]; rfl

open Cert.Consts (κv)

/-- The reciprocal temperature the kernel multiplies by, read by its name. -/
theorem named_eq : Named.named (F := Ideal) κ "inv_temperature" (φ := .f32) 0x41649249#32 = κv :=
  IdealRules.named_const.ideal_named_scalar _ _ _ _ rfl

/-- The similarity of rows n and m of the normalized matrix. -/
def gram (c : Dev nD) (n m' : Fin 8192) : EReal := ∑ k : Fin 256, Zk m c (ix2 n k) * Zk m c (ix2 m' k)

/-- The masked exponential of the similarity of rows n and m. -/
def expOff (c : Dev nD) (n m' : Fin 8192) : EReal := if n = m' then 0 else Ideal.exp (gram m c n m' * κv)

/-- ONE ENTRY OF A TILE. -/
theorem tileE_eq (c : Dev nD) (t : Fin cfg0.N) (r : Fin 2048) (q : Fin 1024) :
    tileE (grid0.coords t) (iblk m c 0 t) (iblk m c 1 t) r q = expOff m c (rowOf t r) (colOf t q) := by
  unfold tileE expOff gram
  rw [differ_eq, named_eq]
  simp only [rowTile_apply, colTile_apply]
  by_cases h : rowOf t r = colOf t q
  · rw [if_pos h, if_pos h, select_zero]; exact Ideal.ofBits_zero_f32
  · rw [if_neg h, if_neg h, select_one]

end Cert.KernelIdeal.Rows

end
-- ==== Proof.KI.Pieces.lean ====
/-
  What each kind of point leaves, as values.  The symbolic runs found the lists of stores each buffer ends with; a
  list that tiles the buffer reads back as the payload of its last store.  So after a point the accumulator is the
  body's one arithmetic term applied to the two tiles and to what the accumulator held before (zeros at a first
  tile), and at a last tile the row-sum block is the lane sum of that.
-/
import proofs.«158876_j63264868270602_2_alg».proof.Proof.KI.Data
import Idealize.ShloMosaic.Lib.Pipeline.Value

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem hz : (![0, 0] : Fin 2 → Nat) = fun _ => 0 := funext fun a => by fin_cases a <;> rfl

/-- The zero block the first column tile stores into the accumulator. -/
abbrev zeros : Vec F S2048x128 .f32 := k0_pay1 (F := F)

/-- A middle tile leaves the accumulator at the payload of its one store: the tile's lane-folded sums added to what it
    found. -/
theorem accMid_eq (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : ¬isLast i) (x0 : Vec F S2048x256 .bf16) (x1 : Vec F S1024x256 .bf16) (xs : Vec F S2048x128 .f32) :
    accMid c i arg2 harg2 arg3 harg3 arg4 harg4 arg5 harg5 hc0 hc1 x0 x1 xs = k0_pay2 i x0 x1 xs := by
  unfold accMid
  rw [View.read_writes_eq_canon _ _ _ (accMid_cover c i arg2 harg2 arg3 harg3 arg4 harg4 arg5 harg5 hc0 hc1 x0 x1 xs)]
  unfold runMid
  dsimp only
  rw [View.canon_unit_zero hz]
  simp only [View.readAt_eq_ld, harg2.read_unread, harg3.read_unread, harg5.read_unread, View.ld_unit_zero (S := S2048x256) hz,
    View.ld_unit_zero (S := S1024x256) hz, View.ld_unit_zero (S := S2048x128) hz]

/-- The first tile stores zeros, reads them back, and leaves the tile's sums added to them. -/
theorem accFirst_eq (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : isFirst i) (hc1 : ¬isLast i) (x0 : Vec F S2048x256 .bf16) (x1 : Vec F S1024x256 .bf16) :
    accFirst c i arg2 harg2 arg3 harg3 arg4 harg4 arg5 harg5 hc0 hc1 x0 x1 = k0_pay2 i x0 x1 (zeros (F := F)) := by
  unfold accFirst
  rw [View.read_writes_eq_canon _ _ _ (accFirst_cover c i arg2 harg2 arg3 harg3 arg4 harg4 arg5 harg5 hc0 hc1 x0 x1)]
  unfold runFirst
  dsimp only
  sl_unfold_words
  rw [View.canon_cons_unit_zero (S := S2048x128) hz, View.readCov_unit_zero (S := S2048x128) _ hz]
  simp only [View.readAt_eq_ld, harg2.read_unread, harg3.read_unread, View.ld_unit_zero (S := S2048x256) hz,
    View.ld_unit_zero (S := S1024x256) hz, View.ld_unit_zero (S := S2048x128) hz]

theorem accLast_eq (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : isLast i) (x0 : Vec F S2048x256 .bf16) (x1 : Vec F S1024x256 .bf16) (xs : Vec F S2048x128 .f32) :
    accLast c i arg2 harg2 arg3 harg3 arg4 harg4 arg5 harg5 hc0 hc1 x0 x1 xs = k0_pay2 i x0 x1 xs := by
  unfold accLast
  rw [View.read_writes_eq_canon _ _ _ (accLast_cover c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread, View.ld_unit_zero (S := S2048x256) hz,
    View.ld_unit_zero (S := S1024x256) hz, View.ld_unit_zero (S := S2048x128) hz]

/-- The last tile leaves, in the row-sum block, each row's 128 lanes of the finished accumulator summed. -/
theorem outLast_eq (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x128 .f32) (harg5 : arg5.IsWhole) (hc0 : ¬isFirst i) (hc1 : isLast i) (x0 : Vec F S2048x256 .bf16) (x1 : Vec F S1024x256 .bf16) (xs : Vec F S2048x128 .f32) :
    outLast c i arg2 harg2 arg3 harg3 arg4 harg4 arg5 harg5 hc0 hc1 x0 x1 xs = k0_pay3 (k0_pay2 i x0 x1 xs) := by
  unfold outLast
  rw [View.read_writes_eq_canon _ _ _ (outLast_cover c i arg2 harg2 arg3 harg3 arg4 harg4 arg5 harg5 hc0 hc1 x0 x1 xs)]
  unfold runLast
  dsimp only
  sl_unfold_words
  rw [View.canon_unit_zero hz, View.readCov_unit_zero (S := S2048x128) _ hz]
  simp only [View.readAt_eq_ld, harg2.read_unread, harg3.read_unread, harg5.read_unread, View.ld_unit_zero (S := S2048x256) hz,
    View.ld_unit_zero (S := S1024x256) hz, View.ld_unit_zero (S := S2048x128) hz]

end Cert.KernelIdeal.Rows

end
-- ==== Proof.KI.Chain.lean ====
/-
  The accumulator after each point, as the body's arithmetic term folded along the points: a first column tile starts
  from zeros, every other tile from what the point before left.  The row-sum block a last tile leaves is the lane sum
  of the accumulator there.
-/
import proofs.«158876_j63264868270602_2_alg».proof.Proof.KI.Pieces

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The accumulator after point `n`. -/
def accAt (c : Dev nD) : (n : ℕ) → n < cfg0.N → Vec F S2048x128 .f32
  | 0, h => k0_pay2 (grid0.coords ⟨0, h⟩) (iblk m c 0 ⟨0, h⟩) (iblk m c 1 ⟨0, h⟩) (zeros (F := F))
  | n + 1, h =>
    if (n + 1) % 8 = 0 then k0_pay2 (grid0.coords ⟨n + 1, h⟩) (iblk m c 0 ⟨n + 1, h⟩) (iblk m c 1 ⟨n + 1, h⟩) (zeros (F := F))
    else k0_pay2 (grid0.coords ⟨n + 1, h⟩) (iblk m c 0 ⟨n + 1, h⟩) (iblk m c 1 ⟨n + 1, h⟩) (accAt c n (Nat.lt_of_succ_lt h))

theorem accAt_first (c : Dev nD) (t : Fin cfg0.N) (h0 : t.val % 8 = 0) :
    accAt m c t.val t.isLt = k0_pay2 (grid0.coords t) (iblk m c 0 t) (iblk m c 1 t) (zeros (F := F)) := by
  obtain ⟨n, hn⟩ := t
  cases n with
  | zero => rfl
  | succ n => exact if_pos h0

theorem accAt_next (c : Dev nD) (t : Fin cfg0.N) (h0 : ¬t.val % 8 = 0) :
    accAt m c t.val t.isLt = k0_pay2 (grid0.coords t) (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h0
  | succ n => exact if_neg h0

/-- What each kind of point leaves, at point t's memrefs and blocks, as the body's term. -/
theorem firstAt_acc (c : Dev nD) (t : Fin cfg0.N) (h0 : t.val % 8 = 0) :
    (firstAt m c t h0).2 = k0_pay2 (grid0.coords t) (iblk m c 0 t) (iblk m c 1 t) (zeros (F := F)) := by
  unfold firstAt
  dsimp only
  exact accFirst_eq (F := F) c (grid0.coords t) (rowM t) (rowM_whole t) (colM t) (colM_whole t) (outM t) (outM_whole t) accM (Memref.isWhole_whole _) ((isFirst_iff t).mpr h0) (fun h => by have := (isLast_iff t).mp h; omega) (iblk m c 0 t) (iblk m c 1 t)
theorem midAt_acc (c : Dev nD) (t : Fin cfg0.N) (h0 : ¬t.val % 8 = 0) (h1 : ¬t.val % 8 = 7) (xs : Vec F S2048x128 .f32) :
    (midAt m c t h0 h1 xs).2 = k0_pay2 (grid0.coords t) (iblk m c 0 t) (iblk m c 1 t) xs := by
  unfold midAt
  dsimp only
  exact accMid_eq (F := F) c (grid0.coords t) (rowM t) (rowM_whole t) (colM t) (colM_whole t) (outM t) (outM_whole t) accM (Memref.isWhole_whole _) (fun h => h0 ((isFirst_iff t).mp h)) (fun h => h1 ((isLast_iff t).mp h)) (iblk m c 0 t) (iblk m c 1 t) xs
theorem lastAt_acc (c : Dev nD) (t : Fin cfg0.N) (h0 : ¬t.val % 8 = 0) (h1 : t.val % 8 = 7) (xs : Vec F S2048x128 .f32) :
    (lastAt m c t h0 h1 xs).2 = k0_pay2 (grid0.coords t) (iblk m c 0 t) (iblk m c 1 t) xs := by
  unfold lastAt
  dsimp only
  exact accLast_eq (F := F) c (grid0.coords t) (rowM t) (rowM_whole t) (colM t) (colM_whole t) (outM t) (outM_whole t) accM (Memref.isWhole_whole _) (fun h => h0 ((isFirst_iff t).mp h)) ((isLast_iff t).mpr h1) (iblk m c 0 t) (iblk m c 1 t) xs
theorem lastAt_out (c : Dev nD) (t : Fin cfg0.N) (h0 : ¬t.val % 8 = 0) (h1 : t.val % 8 = 7) (xs : Vec F S2048x128 .f32) :
    (lastAt m c t h0 h1 xs).1 = k0_pay3 (k0_pay2 (grid0.coords t) (iblk m c 0 t) (iblk m c 1 t) xs) := by
  unfold lastAt
  dsimp only
  exact outLast_eq (F := F) c (grid0.coords t) (rowM t) (rowM_whole t) (colM t) (colM_whole t) (outM t) (outM_whole t) accM (Memref.isWhole_whole _) (fun h => h0 ((isFirst_iff t).mp h)) ((isLast_iff t).mpr h1) (iblk m c 0 t) (iblk m c 1 t) xs

/-- What the run leaves in the accumulator after point `n` is that fold. -/
theorem stateAt_acc (c : Dev nD) : ∀ (n : ℕ) (h : n < cfg0.N), (stateAt m c n h).2 = accAt m c n h
  | 0, h => by
    rw [stateAt_first m c ⟨0, h⟩ (Nat.zero_mod _), firstAt_acc]
    rfl
  | n + 1, h => by
    by_cases h0 : (n + 1) % 8 = 0
    · rw [stateAt_first m c ⟨n + 1, h⟩ h0, firstAt_acc, accAt_first m c ⟨n + 1, h⟩ h0]
    · rw [accAt_next m c ⟨n + 1, h⟩ h0]
      by_cases h1 : (n + 1) % 8 = 7
      · rw [stateAt_last m c ⟨n + 1, h⟩ h0 h1, lastAt_acc]
        exact congrArg (k0_pay2 _ _ _) (stateAt_acc c n _)
      · rw [stateAt_mid m c ⟨n + 1, h⟩ h0 h1, midAt_acc]
        exact congrArg (k0_pay2 _ _ _) (stateAt_acc c n _)

/-- At a last column tile the row-sum block is the lane sum of the accumulator after that point. -/
theorem stateAt_out (c : Dev nD) (t : Fin cfg0.N) (h1 : t.val % 8 = 7) :
    (stateAt m c t.val t.isLt).1 = k0_pay3 (accAt m c t.val t.isLt) := by
  have h0 : ¬t.val % 8 = 0 := by omega
  rw [stateAt_last m c t h0 h1, lastAt_out, accAt_next m c t h0]
  exact congrArg (fun a => k0_pay3 (k0_pay2 _ _ _ a)) (stateAt_acc m c (t.val - 1) _)

end Cert.KernelIdeal.Rows

end
-- ==== Proof.KI.Sums.lean ====
/-
  The row-sum array after the run, as one function.  Row tile b (rows 2048 b … 2048 b + 2047) is written back once, at
  point 8 b + 7, the last column tile of that row tile; the four blocks tile the 8192 rows.  So entry n of the array is
  the lane sum, at row n mod 2048, of the accumulator after point 8 (n / 2048) + 7.
-/
import proofs.«158876_j63264868270602_2_alg».proof.Proof.KI.Chain
import proofs.«158876_j63264868270602_2_alg».proof.Proof.KI.Run
import Idealize.ShloMosaic.Lib.ValueIdx
import Idealize.ShloMosaic.Lib.Pipeline.Value

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The row-sum window's block index at point t is (t / 8, 0). -/
theorem idx_rows : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- The accumulator after point n, for any natural number (zeros past the grid). -/
def accN (c : Dev nD) (n : ℕ) : Vec F S2048x128 .f32 := if h : n < cfg0.N then accAt m c n h else zeros (F := F)

theorem accN_eq (c : Dev nD) (t : Fin cfg0.N) : accN m c t.val = accAt m c t.val t.isLt := dif_pos t.isLt

/-- THE ROW SUMS: entry n is row n mod 2048 of the lane-summed accumulator at the end of row tile n / 2048. -/
def rowSums (c : Dev nD) : Buf (Elt F) ((c : Thread nD τ).loc main_v25) := fun j =>
  k0_pay3 (accN m c (8 * ((j 0).val / 2048) + 7)) (ix2 ⟨(j 0).val % 2048, Nat.mod_lt _ (by decide)⟩ ⟨(j 1).val, (j 1).isLt⟩)

/-- What point t writes back is block t of the row sums. -/
theorem flushed_eq (c : Dev nD) (t : Fin cfg0.N) (hf : (cfg0.win 2).flush t = true) :
    (dats m 0 c).flushed 2 t = ((cfg0.win 2).blk t).view.read (Elt F) (rowSums m c) := by
  have h7 : t.val % 8 = 7 := (flush0_2 t).mp hf
  show (cfg0.win 2).cut (grid0.coords t) ((dats m 0 c).after 2 t) = _
  rw [after2, stateAt_out m c t h7]
  obtain ⟨e0, e1⟩ := idx_rows t
  have hN : t.val < 32 := lt_of_lt_of_eq t.isLt N_0
  funext j
  show k0_pay3 (accAt m c t.val t.isLt) j = rowSums m c (((cfg0.win 2).blk t).view.emb j)
  have hj0 : (j 0).val < 2048 := (j 0).isLt
  have hj1 : (j 1).val < 1 := (j 1).isLt
  have hE0 : ((((cfg0.win 2).blk t).view.emb j) 0).val = win0_2.index t (0 : Fin 2) * 2048 + 1 * (j 0).val := rfl
  have hE1 : ((((cfg0.win 2).blk t).view.emb j) 1).val = win0_2.index t (1 : Fin 2) * 1 + 1 * (j 1).val := rfl
  have ht : 8 * (((((cfg0.win 2).blk t).view.emb j) 0).val / 2048) + 7 = t.val := by rw [hE0, e0]; omega
  have hr : ((((cfg0.win 2).blk t).view.emb j) 0).val % 2048 = (j 0).val := by rw [hE0, e0]; omega
  have hc : ((((cfg0.win 2).blk t).view.emb j) 1).val = (j 1).val := by rw [hE1, e1]; omega
  unfold rowSums
  dsimp only
  rw [show accN m c (8 * (((((cfg0.win 2).blk t).view.emb j) 0).val / 2048) + 7) = accAt m c t.val t.isLt from by
    rw [ht]; exact accN_eq m c t]
  refine congrArg (k0_pay3 (accAt m c t.val t.isLt)) (funext fun a => Fin.ext ?_)
  match a with
  | ⟨0, _⟩ => exact hr.symm
  | ⟨1, _⟩ => exact hc.symm

/-- An entry lies in point t's block iff its row is in the block's 2048 rows. -/
theorem mem_blk (t : Fin cfg0.N) (i : S8192x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v25).slice (win0_2.rect t)).set ↔ _
  rw [View.set_slice_whole, Rect.mem_set_unit]
  exact Iff.rfl

/-- THE ARRAY after the run is the row sums: every row is in the block its row tile's last point writes back. -/
theorem final_sums (c : Dev nD) : (dats m 0 c).arrAt 2 cfg0.N = rowSums m c :=
  (dats m 0 c).arrAt_eq_of_cover 2 (rowSums m c) (flushed_eq m c) fun i => by
    have hi0 : (i 0).val < 8192 := (i 0).isLt
    have hi1 : (i 1).val < 1 := (i 1).isLt
    have hN : cfg0.N = 32 := N_0
    let t : Fin cfg0.N := ⟨8 * ((i 0).val / 2048) + 7, by rw [hN]; omega⟩
    obtain ⟨e0, e1⟩ := idx_rows t
    refine ⟨t, (flush0_2 t).mpr (by show (8 * ((i 0).val / 2048) + 7) % 8 = 7; omega), ?_⟩
    rw [mem_blk]
    intro a
    match a with
    | ⟨0, _⟩ =>
      show win0_2.index t (0 : Fin 2) * 2048 ≤ (i 0).val ∧ (i 0).val < win0_2.index t (0 : Fin 2) * 2048 + 2048
      rw [e0]; show (8 * ((i 0).val / 2048) + 7) / 8 * 2048 ≤ (i 0).val ∧ (i 0).val < (8 * ((i 0).val / 2048) + 7) / 8 * 2048 + 2048
      omega
    | ⟨1, _⟩ =>
      show win0_2.index t (1 : Fin 2) * 1 ≤ (i 1).val ∧ (i 1).val < win0_2.index t (1 : Fin 2) * 1 + 1
      rw [e1]; omega

end Cert.KernelIdeal.Rows

end
-- ==== Proof.Regroup.lean ====
/-
  The order in which the kernel adds up a row.  The 8192 columns are 8 tiles of 1024; a tile is 8 groups of 128 lanes.
  For each lane the kernel keeps a running total over the tiles of the tile's 8 group terms at that lane, starting from
  zero, and at the end adds the 128 lanes.  In a commutative monoid that is the sum over all columns.
-/
import Mathlib.Algebra.BigOperators.Fin
import Mathlib.Algebra.BigOperators.Ring.Finset
import Mathlib.Logic.Equiv.Fin.Basic

namespace Cert.Regroup

open Finset

variable {M : Type*} [AddCommMonoid M]

/-- A sum over a · b consecutive numbers, as a blocks of b. -/
theorem sum_split (a b : ℕ) (f : ℕ → M) :
    ∑ x : Fin (a * b), f x.val = ∑ j : Fin a, ∑ q : Fin b, f (b * j.val + q.val) := by
  rw [← (finProdFinEquiv (m := a) (n := b)).sum_comp, Fintype.sum_prod_type]
  refine Finset.sum_congr rfl fun j _ => Finset.sum_congr rfl fun q _ => ?_
  rw [finProdFinEquiv_apply_val, Nat.add_comm]

/-- The 8192 columns as tile, group, lane. -/
theorem sum_cols (f : ℕ → M) :
    ∑ x : Fin 8192, f x.val = ∑ j : Fin 8, ∑ g : Fin 8, ∑ l : Fin 128, f (1024 * j.val + (128 * g.val + l.val)) := by
  have h1 : ∑ x : Fin 8192, f x.val = ∑ j : Fin 8, ∑ q : Fin 1024, f (1024 * j.val + q.val) := sum_split 8 1024 f
  rw [h1]
  refine Finset.sum_congr rfl fun j _ => ?_
  exact sum_split 8 128 (fun q => f (1024 * j.val + q))

/-- The running total over the tiles 0 … j, started from zero. -/
def running (a : ℕ → M) : ℕ → M
  | 0 => 0 + a 0
  | j + 1 => running a j + a (j + 1)

theorem running_eq (a : ℕ → M) : ∀ j, running a j = ∑ i ∈ Finset.range (j + 1), a i
  | 0 => by simp [running]
  | j + 1 => by rw [running, running_eq a j, Finset.sum_range_succ (n := j + 1)]

/-- THE ROW: lanes outermost, a running total over the tiles inside, the groups innermost — the sum over all columns. -/
theorem row_sum (e : ℕ → M) :
    ∑ l : Fin 128, running (fun j => ∑ g : Fin 8, e (1024 * j + (128 * g.val + l.val))) 7 = ∑ x : Fin 8192, e x.val := by
  rw [sum_cols]
  simp only [running_eq]
  have h : ∀ l : Fin 128, ∑ i ∈ Finset.range (7 + 1), ∑ g : Fin 8, e (1024 * i + (128 * g.val + l.val))
      = ∑ j : Fin 8, ∑ g : Fin 8, e (1024 * j.val + (128 * g.val + l.val)) := fun l =>
    (Fin.sum_univ_eq_sum_range (fun i => ∑ g : Fin 8, e (1024 * i + (128 * g.val + l.val))) 8).symm
  rw [Finset.sum_congr rfl fun l _ => h l, Finset.sum_comm]
  refine Finset.sum_congr rfl fun j _ => ?_
  rw [Finset.sum_comm]

end Cert.Regroup
-- ==== Proof.KI.NegSum.lean ====
/-
  The kernel's row sums as plain sums.  Fix a row n = 2048 b + r of the similarity matrix.  Along the 8 column tiles of
  row tile b, accumulator entry (r, l) is the running total, from zero, of each tile's 8 group terms at lane l; the row
  sum adds the 128 lanes.  Regrouped, that is the sum over all 8192 columns m of the masked exponential of ⟨Z n, Z m⟩.
-/
import proofs.«158876_j63264868270602_2_alg».proof.Proof.KI.Tile
import proofs.«158876_j63264868270602_2_alg».proof.Proof.KI.Sums
import proofs.«158876_j63264868270602_2_alg».proof.Proof.Regroup

set_option maxRecDepth 16384

noncomputable section

namespace Cert.KernelIdeal.Rows

open Idealize.ShloMosaic Idealize.ShloMosaic.TcCoe Idealize.SL.Sem Idealize.ShloMosaic.ValueIdx
open Cert.KernelIdeal Cert.KernelIdeal.Gen Cert.KernelIdeal.PayAt

variable (m : (ℓ : Loc nD τ sig) → Buf (Elt Ideal) ℓ)

/-- Row n's masked exponentials, as a function of the column NUMBER (zero past the last column). -/
def eRow (c : Dev nD) (n : Fin 8192) (x : ℕ) : EReal := if h : x < 8192 then expOff m c n ⟨x, h⟩ else 0

theorem eRow_val (c : Dev nD) (n x : Fin 8192) : eRow m c n x.val = expOff m c n x := dif_pos x.isLt

/-- Row 2048 b + r. -/
abbrev rowNo (b : Fin 4) (r : Fin 2048) : Fin 8192 := ⟨2048 * b.val + r.val, by have := b.isLt; have := r.isLt; omega⟩

/-- One tile's contribution to accumulator entry (r, l), as row terms. -/
theorem tile_terms (c : Dev nD) (b : Fin 4) (r : Fin 2048) (l : Fin 128) (j : ℕ) (hj : j < 8) (t : Fin cfg0.N) (ht : t.val = 8 * b.val + j) :
    ∑ g : Fin 8, tileE (grid0.coords t) (iblk m c 0 t) (iblk m c 1 t) r (col g l)
      = ∑ g : Fin 8, eRow m c (rowNo b r) (1024 * j + (128 * g.val + l.val)) := by
  refine Finset.sum_congr rfl fun g _ => ?_
  rw [tileE_eq]
  have hb := b.isLt; have hr := r.isLt; have hl := l.isLt; have hg := g.isLt
  have e1 : rowOf t r = rowNo b r := Fin.ext (by show 2048 * (t.val / 8) + r.val = 2048 * b.val + r.val; rw [ht]; omega)
  have e2 : (colOf t (col g l)).val = 1024 * j + (128 * g.val + l.val) := by
    show 1024 * (t.val % 8) + (128 * g.val + l.val) = _; rw [ht]; omega
  rw [e1, ← e2, eRow_val]

/-- ALONG A ROW TILE: after its column tile j the accumulator entry (r, l) is the running total of the tiles' terms. -/
theorem accAt_apply (c : Dev nD) (b : Fin 4) (r : Fin 2048) (l : Fin 128) :
    ∀ (j : ℕ) (t : Fin cfg0.N), t.val = 8 * b.val + j → j < 8 →
      (accAt m c t.val t.isLt : Vec Ideal S2048x128 .f32) (ix2 r l)
        = Regroup.running (fun j' => ∑ g : Fin 8, eRow m c (rowNo b r) (1024 * j' + (128 * g.val + l.val))) j
  | 0, t, ht, hj => by
    have h0 : t.val % 8 = 0 := by omega
    rw [accAt_first m c t h0]
    refine (pay2_apply (grid0.coords t) (iblk m c 0 t) (iblk m c 1 t) (zeros (F := Ideal)) r l).trans ?_
    rw [show (zeros (F := Ideal)) (ix2 r l) = 0 from pay1_apply r l, tile_terms m c b r l 0 hj t ht]
    rfl
  | j + 1, t, ht, hj => by
    have h0 : ¬t.val % 8 = 0 := by omega
    rw [accAt_next m c t h0]
    refine (pay2_apply (grid0.coords t) (iblk m c 0 t) (iblk m c 1 t) _ r l).trans ?_
    rw [accAt_apply c b r l j ⟨t.val - 1, Nat.lt_of_le_of_lt (Nat.sub_le _ _) t.isLt⟩ (by show t.val - 1 = _; omega) (by omega),
      tile_terms m c b r l (j + 1) hj t ht]
    rfl

/-- THE KERNEL'S ROW SUM of row n: the sum over all columns of the masked exponentials. -/
theorem rowSums_apply (c : Dev nD) (n : Fin 8192) (z : Fin 1) :
    (rowSums m c : S8192x1.Idx → EReal) (ix2 n z) = ∑ x : Fin 8192, expOff m c n x := by
  have hn := n.isLt
  have hN : cfg0.N = 32 := N_0
  let b : Fin 4 := ⟨n.val / 2048, by omega⟩
  let r : Fin 2048 := ⟨n.val % 2048, Nat.mod_lt _ (by decide)⟩
  let t : Fin cfg0.N := ⟨8 * (n.val / 2048) + 7, by rw [hN]; omega⟩
  have hrow : rowNo b r = n := Fin.ext (by show 2048 * (n.val / 2048) + n.val % 2048 = n.val; omega)
  show k0_pay3 (accN m c (8 * (n.val / 2048) + 7)) (ix2 r ⟨z.val, z.isLt⟩) = _
  rw [show accN m c (8 * (n.val / 2048) + 7) = accAt m c t.val t.isLt from accN_eq m c t]
  refine (pay3_apply _ r _).trans ?_
  rw [Finset.sum_congr rfl fun l _ => accAt_apply m c b r l 7 t rfl (by decide)]
  rw [Regroup.row_sum (eRow m c (rowNo b r)), hrow]
  exact Finset.sum_congr rfl fun x _ => eRow_val m c n x

end Cert.KernelIdeal.Rows

end
-- ==== Proof.Ref.Stages.lean ====
/-
  The reference read at an index, over the extended reals.  Z is its twice-normalized matrix.  The similarity of rows
  n and m divided by the temperature is ⟨Z n, Z m⟩ times the exact reciprocal 2^27 / 9395241 of the divisor; the
  off-diagonal mask is 1 minus the 0/1 indicator of n = m; so the masked exponential is 0 on the diagonal and
  exp (⟨Z n, Z m⟩ · 2^27/9395241) off it, and the row sum is 0 plus their sum over all columns.
-/
import proofs.«158876_j63264868270602_2_alg».proof.Defs
import proofs.«158876_j63264868270602_2_alg».proof.Proof.Gen.ReferenceIdeal.Read
import proofs.«158876_j63264868270602_2_alg».proof.Proof.Consts

set_option maxRecDepth 16384

noncomputable section

namespace Cert.ReferenceIdeal.Stages

open Cert.ReferenceIdeal Cert.ReferenceIdeal.Gen Cert.ReferenceIdeal.Read
open Idealize.ShloMosaic Idealize.ShloMosaic.ValueIdx

variable (x0 x1 : (⟨S4096x256, .f32⟩ : BufTy).Contents (Elt Ideal))

/-- The reference's normalized matrix. -/
abbrev Z : S8192x256.Idx → EReal := val_main_v10 (F := Ideal) x0 x1

open Cert.Consts (κv)

/-- The similarity of rows n and m. -/
def gram (n m' : Fin 8192) : EReal := ∑ k : Fin 256, Z x0 x1 (ix2 n k) * Z x0 x1 (ix2 m' k)

/-- The masked exponential of the similarity of rows n and m. -/
def expOff (n m' : Fin 8192) : EReal := if n = m' then 0 else Ideal.exp (gram x0 x1 n m' * κv)

/-- Similarity over temperature. -/
theorem sim_apply (n m' : Fin 8192) : val_main_v13 (F := Ideal) x0 x1 (ix2 n m') = gram x0 x1 n m' * κv := by
  have el : ∀ k, lidx_main_v11 (ix2 n m') k = ix2 n k := fun k => funext fun a => Fin.ext (by match a with | ⟨0, _⟩ => rfl | ⟨1, _⟩ => rfl)
  have er : ∀ k, ridx_main_v11 (ix2 n m') k = ix2 m' k := fun k => funext fun a => Fin.ext (by match a with | ⟨0, _⟩ => rfl | ⟨1, _⟩ => rfl)
  have h11 : val_main_v11 (F := Ideal) x0 x1 (ix2 n m') = gram x0 x1 n m' := by
    rw [val_main_v11_apply]
    exact Finset.sum_congr rfl fun k _ => by rw [el, er]
  have h12 : val_main_v12 (F := Ideal) (ix2 n m') = FloatOps.ofBits (F := Ideal) .f32 0x3D8F5C29#32 := by
    rw [val_main_v12_apply, val_main_cst_1_apply]
  rw [val_main_v13_apply, h11, h12]
  exact Cert.Consts.host_div_temperature _

/-- Row numbers are far below 2^32: the 32-bit words are equal iff the rows are. -/
theorem word_eq (n m' : Fin 8192) : (BitVec.ofNat 32 n.val + 0#32 = BitVec.ofNat 32 m'.val) ↔ n = m' := by
  rw [← BitVec.toNat_inj]
  simp only [BitVec.toNat_add, BitVec.toNat_ofNat]
  have := n.isLt; have := m'.isLt
  constructor
  · intro h; exact Fin.ext (by simp at h; omega)
  · rintro rfl; simp

theorem one_sub_one : (1 : EReal) - 1 = 0 := by
  rw [← EReal.coe_one, ← EReal.coe_sub]; norm_num

/-- The off-diagonal mask: 0 on the diagonal, 1 off it. -/
theorem mask_apply (n m' : Fin 8192) : val_main_v24 (F := Ideal) (ix2 n m') = if n = m' then 0 else 1 := by
  rw [val_main_v24_apply, val_main_v23_apply, val_main_cst_2_apply, val_main_v22_apply, val_main_v21_apply, val_main_v20_apply,
    val_main_v17_apply, val_main_v19_apply, val_main_c_apply, val_main_v18_apply]
  show Ideal.ofBits .f32 0x3F800000#32 - (((IntOp.cmpi .eq (BitVec.ofNat 32 n.val + 0#32) (BitVec.ofNat 32 m'.val)).toNat : ℝ) : EReal) = _
  rw [Cert.Consts.ofBits_one]
  by_cases h : n = m'
  · rw [if_pos h]
    have hw : (BitVec.ofNat 32 n.val + 0#32) = BitVec.ofNat 32 m'.val := (word_eq n m').mpr h
    rw [show IntOp.cmpi .eq (BitVec.ofNat 32 n.val + 0#32) (BitVec.ofNat 32 m'.val) = 1#1 from by
      unfold IntOp.cmpi; rw [hw, beq_self_eq_true]; rfl]
    rw [show (((1#1 : BitVec 1).toNat : ℝ) : EReal) = 1 from by norm_num]
    exact one_sub_one
  · rw [if_neg h]
    have hw : ¬(BitVec.ofNat 32 n.val + 0#32) = BitVec.ofNat 32 m'.val := fun e => h ((word_eq n m').mp e)
    rw [show IntOp.cmpi .eq (BitVec.ofNat 32 n.val + 0#32) (BitVec.ofNat 32 m'.val) = 0#1 from by
      unfold IntOp.cmpi; rw [beq_eq_false_iff_ne.mpr hw]; rfl]
    rw [show (((0#1 : BitVec 1).toNat : ℝ) : EReal) = 0 from by norm_num, sub_zero]

/-- One masked exponential. -/
theorem masked_apply (n m' : Fin 8192) : val_main_v26 (F := Ideal) x0 x1 (ix2 n m') = expOff x0 x1 n m' := by
  rw [val_main_v26_apply, val_main_v25_apply, sim_apply, mask_apply]
  show Ideal.exp (gram x0 x1 n m' * κv) * _ = _
  unfold expOff
  by_cases h : n = m'
  · rw [if_pos h, if_pos h, mul_zero]
  · rw [if_neg h, if_neg h, mul_one]

/-- THE REFERENCE'S ROW SUM of row n: zero plus the sum over all columns of the masked exponentials. -/
theorem negSum_apply (n : Fin 8192) : val_main_v27 (F := Ideal) x0 x1 (ix1 n) = 0 + ∑ x : Fin 8192, expOff x0 x1 n x := by
  rw [val_main_v27_apply, val_main_cst_3_apply]
  show Ideal.ofBits .f32 0x00000000#32 + _ = _
  rw [Ideal.ofBits_zero_f32]
  congr 1
  refine Finset.sum_congr rfl fun k _ => ?_
  have e : idx_main_v27 (ix1 n) k = ix2 n k := funext fun a => Fin.ext (by match a with | ⟨0, _⟩ => rfl | ⟨1, _⟩ => rfl)
  rw [e, masked_apply]

end Cert.ReferenceIdeal.Stages

end
-- ==== Proof.Ref.Pairs.lean ====
/-
  The reference's positive pairs.  Entry i < 4096 of its vector of positives is entry (i, 4096 + i) of the similarity
  matrix over the temperature, and entry 4096 + i is entry (4096 + i, i): each view of a sample is paired with the other
  view of the same sample.  The reference takes them with two gathers whose start indices are built from iotas.
-/
import proofs.«158876_j63264868270602_2_alg».proof.Proof.Ref.Stages
import Idealize.ShloMosaic.Lib.Pipeline.Value

set_option maxRecDepth 16384

noncomputable section

namespace Cert.ReferenceIdeal.Stages

open Cert.ReferenceIdeal Cert.ReferenceIdeal.Gen Cert.ReferenceIdeal.Read
open Idealize.ShloMosaic Idealize.ShloMosaic.ValueIdx
open Cert.Consts (κv)

/-- A gather of single entries of a matrix at a two-column array of start indices: result entry i is the matrix at the
    (clamped) row and column that row i of the start indices names. -/
theorem gather_pair {α : Type} (x : S8192x8192.Idx → α) (idx : IVec S4096x2 32) (i : Fin 4096) (a b : Fin 8192)
    (h0 : min (idx (ix2 i (0 : Fin 2))).toInt.toNat 8191 = a.val)
    (h1 : min (idx (ix2 i (1 : Fin 2))).toInt.toNat 8191 = b.val) :
    Host.gather gather_S8192x8192_S4096x2_S4096_n_01_n_n_01_1_11 x idx (ix1 i) = x (ix2 a b) := by
  unfold Host.gather
  congr 1
  funext ax
  refine Fin.ext ?_
  show gather_S8192x8192_S4096x2_S4096_n_01_n_n_01_1_11.start (ix1 i) idx ax + gather_S8192x8192_S4096x2_S4096_n_01_n_n_01_1_11.batchCoord (ix1 i) ax + gather_S8192x8192_S4096x2_S4096_n_01_n_n_01_1_11.offCoord (ix1 i) ax = _
  rw [GatherDims.batchCoord_eq_zero _ _ _ List.not_mem_nil, Nat.add_zero]
  have hax : ax = (0 : Fin 2) ∨ ax = (1 : Fin 2) := by
    fin_cases ax
    · exact Or.inl rfl
    · exact Or.inr rfl
  rcases hax with rfl | rfl
  · rw [GatherDims.offCoord_eq_zero gather_S8192x8192_S4096x2_S4096_n_01_n_n_01_1_11 (ix1 i) (0 : Fin 2) (fun h => ((GatherDims.mem_sKept gather_S8192x8192_S4096x2_S4096_n_01_n_n_01_1_11 _).mp h).1 (by decide)), Nat.add_zero]
    unfold GatherDims.start
    rw [dif_pos (show (0 : Fin 2) ∈ gather_S8192x8192_S4096x2_S4096_n_01_n_n_01_1_11.startIndexMap by decide)]
    have hsi : gather_S8192x8192_S4096x2_S4096_n_01_n_n_01_1_11.siIdx (ix1 i) ⟨List.idxOf (0 : Fin 2) gather_S8192x8192_S4096x2_S4096_n_01_n_n_01_1_11.startIndexMap,
        List.idxOf_lt_length_iff.2 (by decide)⟩ = ix2 i (0 : Fin 2) := by
      funext c; refine Fin.ext ?_
      match c with
      | ⟨0, _⟩ => rfl
      | ⟨1, _⟩ => rfl
    rw [hsi]
    exact h0
  · rw [GatherDims.offCoord_eq_zero gather_S8192x8192_S4096x2_S4096_n_01_n_n_01_1_11 (ix1 i) (1 : Fin 2) (fun h => ((GatherDims.mem_sKept gather_S8192x8192_S4096x2_S4096_n_01_n_n_01_1_11 _).mp h).1 (by decide)), Nat.add_zero]
    unfold GatherDims.start
    rw [dif_pos (show (1 : Fin 2) ∈ gather_S8192x8192_S4096x2_S4096_n_01_n_n_01_1_11.startIndexMap by decide)]
    have hsi : gather_S8192x8192_S4096x2_S4096_n_01_n_n_01_1_11.siIdx (ix1 i) ⟨List.idxOf (1 : Fin 2) gather_S8192x8192_S4096x2_S4096_n_01_n_n_01_1_11.startIndexMap,
        List.idxOf_lt_length_iff.2 (by decide)⟩ = ix2 i (1 : Fin 2) := by
      funext c; refine Fin.ext ?_
      match c with
      | ⟨0, _⟩ => rfl
      | ⟨1, _⟩ => rfl
    rw [hsi]
    exact h1

/-- A row number, as a 32-bit word, is not negative; -/
theorem not_neg (k : ℕ) (hk : k < 8192) : IntOp.cmpi .slt (BitVec.ofNat 32 k) 0#32 = 0#1 := by
  unfold IntOp.cmpi
  show BitVec.ofBool ((BitVec.ofNat 32 k).slt 0#32) = 0#1
  rw [BitVec.slt_zero_eq_msb, BitVec.msb_eq_decide]
  simp only [BitVec.toNat_ofNat]
  rw [decide_eq_false (by omega)]
  rfl

/-- and reads back as itself. -/
theorem word_toNat (k : ℕ) (hk : k < 8192) : min (BitVec.ofNat 32 k).toInt.toNat 8191 = k := by
  have h : (BitVec.ofNat 32 k).toInt = (k : Int) := by
    rw [BitVec.toInt_eq_toNat_cond]
    simp only [BitVec.toNat_ofNat]
    split <;> omega
  rw [h]
  simp only [Int.toNat_natCast]
  omega

theorem shift_word (i : ℕ) : 4096#32 + BitVec.ofNat 32 i = BitVec.ofNat 32 (4096 + i) := by
  rw [BitVec.ofNat_add]

/-! ## The start indices -/

theorem col0 (i : Fin 4096) : idx_main_call2_v14 (ix2 i (0 : Fin 1)) = ix1 i := funext fun a => Fin.ext (by match a with | ⟨0, _⟩ => rfl)

/-- First gather, first column: the row number i. -/
theorem startA_row (i : Fin 4096) : val_main_call2_v16 (F := Ideal) (ix2 i (0 : Fin 2)) = BitVec.ofNat 32 i.val := by
  have hi := i.isLt
  unfold val_main_call2_v16
  refine (concatenate_pair_apply_left (t := S4096x2) (s₁ := S4096x1) (s₂ := S4096x1) (1 : Fin 2) _ _ concatenates_S4096x1_S4096x1_S4096x2_d1 (ix2 i (0 : Fin 2)) rfl (ix2 i (0 : Fin 1))
    (fun b => by match b with | ⟨0, _⟩ => rfl | ⟨1, _⟩ => rfl)).trans ?_
  rw [val_main_call2_v14_apply, col0, val_main_call2_v8_apply, val_main_call2_v5_apply, val_main_call2_v0_apply, val_main_call2_v4_apply,
    val_main_call2_c_0_apply, not_neg i.val (by omega), select_zero]

/-- First gather, second column: 4096 + i. -/
theorem startA_col (i : Fin 4096) : val_main_call2_v16 (F := Ideal) (ix2 i (1 : Fin 2)) = BitVec.ofNat 32 (4096 + i.val) := by
  have hi := i.isLt
  unfold val_main_call2_v16
  refine (concatenate_pair_apply_right (t := S4096x2) (s₁ := S4096x1) (s₂ := S4096x1) (1 : Fin 2) _ _ concatenates_S4096x1_S4096x1_S4096x2_d1 (ix2 i (1 : Fin 2)) rfl rfl (ix2 i (0 : Fin 1))
    (fun b hb => by match b with | ⟨0, _⟩ => rfl | ⟨1, _⟩ => exact absurd rfl hb) rfl).trans ?_
  rw [val_main_call2_v15_apply, show idx_main_call2_v15 (ix2 i (0 : Fin 1)) = ix1 i from funext fun a => Fin.ext (by match a with | ⟨0, _⟩ => rfl),
    val_main_call2_v13_apply, val_main_call2_v10_apply, val_main_call2_v3_apply, val_main_call2_v2_apply, val_main_call2_c_apply,
    val_main_call2_v1_apply, val_main_call2_v9_apply, val_main_call2_c_2_apply]
  show Scalar.select (IntOp.cmpi .slt (4096#32 + BitVec.ofNat 32 i.val) 0#32) _ (4096#32 + BitVec.ofNat 32 i.val) = _
  rw [shift_word, not_neg (4096 + i.val) (by omega), select_zero]

/-- Second gather, first column: 4096 + i. -/
theorem startB_row (i : Fin 4096) : val_main_call3_v16 (F := Ideal) (ix2 i (0 : Fin 2)) = BitVec.ofNat 32 (4096 + i.val) := by
  have hi := i.isLt
  unfold val_main_call3_v16
  refine (concatenate_pair_apply_left (t := S4096x2) (s₁ := S4096x1) (s₂ := S4096x1) (1 : Fin 2) _ _ concatenates_S4096x1_S4096x1_S4096x2_d1 (ix2 i (0 : Fin 2)) rfl (ix2 i (0 : Fin 1))
    (fun b => by match b with | ⟨0, _⟩ => rfl | ⟨1, _⟩ => rfl)).trans ?_
  rw [val_main_call3_v14_apply, show idx_main_call3_v14 (ix2 i (0 : Fin 1)) = ix1 i from funext fun a => Fin.ext (by match a with | ⟨0, _⟩ => rfl),
    val_main_call3_v8_apply, val_main_call3_v5_apply, val_main_call3_v3_apply, val_main_call3_v2_apply, val_main_call3_c_apply,
    val_main_call3_v1_apply, val_main_call3_v4_apply, val_main_call3_c_0_apply]
  show Scalar.select (IntOp.cmpi .slt (4096#32 + BitVec.ofNat 32 i.val) 0#32) _ (4096#32 + BitVec.ofNat 32 i.val) = _
  rw [shift_word, not_neg (4096 + i.val) (by omega), select_zero]

/-- Second gather, second column: i. -/
theorem startB_col (i : Fin 4096) : val_main_call3_v16 (F := Ideal) (ix2 i (1 : Fin 2)) = BitVec.ofNat 32 i.val := by
  have hi := i.isLt
  unfold val_main_call3_v16
  refine (concatenate_pair_apply_right (t := S4096x2) (s₁ := S4096x1) (s₂ := S4096x1) (1 : Fin 2) _ _ concatenates_S4096x1_S4096x1_S4096x2_d1 (ix2 i (1 : Fin 2)) rfl rfl (ix2 i (0 : Fin 1))
    (fun b hb => by match b with | ⟨0, _⟩ => rfl | ⟨1, _⟩ => exact absurd rfl hb) rfl).trans ?_
  rw [val_main_call3_v15_apply, show idx_main_call3_v15 (ix2 i (0 : Fin 1)) = ix1 i from funext fun a => Fin.ext (by match a with | ⟨0, _⟩ => rfl),
    val_main_call3_v13_apply, val_main_call3_v10_apply, val_main_call3_v0_apply, val_main_call3_v9_apply, val_main_call3_c_2_apply,
    not_neg i.val (by omega), select_zero]

/-! ## The positives -/

variable (x0 x1 : (⟨S4096x256, .f32⟩ : BufTy).Contents (Elt Ideal))

/-- Row i's partner, in the second half. -/
abbrev hi (i : Fin 4096) : Fin 8192 := ⟨4096 + i.val, by have := i.isLt; omega⟩
/-- Row i as a row of the whole matrix. -/
abbrev lo (i : Fin 4096) : Fin 8192 := ⟨i.val, by have := i.isLt; omega⟩

theorem pairA_apply (i : Fin 4096) : val_main_v14 (F := Ideal) x0 x1 (ix1 i) = gram x0 x1 (lo i) (hi i) * κv := by
  have hi' := i.isLt
  unfold val_main_v14
  rw [gather_pair _ _ i (lo i) (hi i) (by rw [startA_row]; exact word_toNat i.val (by omega)) (by rw [startA_col]; exact word_toNat (4096 + i.val) (by omega))]
  exact sim_apply x0 x1 (lo i) (hi i)

theorem pairB_apply (i : Fin 4096) : val_main_v15 (F := Ideal) x0 x1 (ix1 i) = gram x0 x1 (hi i) (lo i) * κv := by
  have hi' := i.isLt
  unfold val_main_v15
  rw [gather_pair _ _ i (hi i) (lo i) (by rw [startB_row]; exact word_toNat (4096 + i.val) (by omega)) (by rw [startB_col]; exact word_toNat i.val (by omega))]
  exact sim_apply x0 x1 (hi i) (lo i)

/-- THE REFERENCE'S POSITIVES: in the first half the pair (i, 4096 + i), in the second the pair (4096 + i, i). -/
theorem pos_lo (i : Fin 4096) : val_main_v16 (F := Ideal) x0 x1 (ix1 (lo i)) = gram x0 x1 (lo i) (hi i) * κv := by
  unfold val_main_v16
  refine (concatenate_pair_apply_left (t := S8192) (s₁ := S4096) (s₂ := S4096) (0 : Fin 1) _ _ concatenates_S4096_S4096_S8192_d0 (ix1 (lo i)) rfl (ix1 i)
    (fun b => by match b with | ⟨0, _⟩ => rfl)).trans ?_
  exact pairA_apply x0 x1 i

theorem pos_hi (i : Fin 4096) : val_main_v16 (F := Ideal) x0 x1 (ix1 (hi i)) = gram x0 x1 (hi i) (lo i) * κv := by
  unfold val_main_v16
  refine (concatenate_pair_apply_right (t := S8192) (s₁ := S4096) (s₂ := S4096) (0 : Fin 1) _ _ concatenates_S4096_S4096_S8192_d0 (ix1 (hi i)) rfl rfl (ix1 i)
    (fun b hb => by match b with | ⟨0, _⟩ => exact absurd rfl hb) (by show i.val + 4096 = 4096 + i.val; omega)).trans ?_
  exact pairB_apply x0 x1 i

end Cert.ReferenceIdeal.Stages

end
-- ==== Proof.Bridge.Kernel.lean ====
/-
  The idealized kernel's result as a function of the two arguments.  The seven operations after the region compute
  mean (log (row sums) − positives); the region's input is the twice-normalized stacked matrix, which is — operation for
  operation — the reference's; the positives are, for i < 4096, ⟨Z i, Z (4096+i)⟩ over the temperature, laid out twice.
-/
import proofs.«158876_j63264868270602_2_alg».proof.Proof.KI.NegSum
import proofs.«158876_j63264868270602_2_alg».proof.Proof.Ref.Pairs

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Rows
open Cert.Consts (κv)

variable (m : (ℓ : Loc nD τ sig) → Buf (Elt Ideal) ℓ)

/-- The two arguments as the launch finds them. -/
abbrev X0 (c : Dev nD) : (⟨S4096x256, .f32⟩ : BufTy).Contents (Elt Ideal) := m ((c.tc : Thread nD τ).loc main_arg0)
abbrev X1 (c : Dev nD) : (⟨S4096x256, .f32⟩ : BufTy).Contents (Elt Ideal) := m ((c.tc : Thread nD τ).loc main_arg1)

/-- The loss from the vector of row sums and the vector of positives: mean over the 8192 rows of log (row sum) − positive. -/
def lossOf (neg pos : FVec Ideal S8192 .f32) : FVec Ideal S_ .f32 :=
  Host.divf (F := Ideal) (Host.reduceAdd (F := Ideal) (subf (Host.log neg) pos) (constant (F := Ideal) S_ .f32 0x00000000#32) reducesTo_S8192_S_d0 h_S_)
    (constant (F := Ideal) S_ .f32 0x46000000#32)

/-- The row sums as a vector of 8192. -/
def negVec (c : Dev nD) : FVec Ideal S8192 .f32 := fun i => shapeCast S8192 (rowSums m c) shapeCasts_S8192x1_S8192 i

/-- THE KERNEL'S RESULT. -/
theorem Vend_result (c : Dev nD) : Vend m c (Proc.devRef .tc main_v30) = lossOf (negVec m c) (V m c main_v24) := by
  unfold Vend hostOps1
  after_results
  rw [Vexit_sums, Vexit_of_ne m c main_v24 (by decide), final_sums]
  rfl

set_option maxHeartbeats 4000000 in
/-- The matrix the region reads is the reference's normalized matrix of the same arguments. -/
theorem V_rows (c : Dev nD) : (V m c main_v17 : S8192x256.Idx → EReal) = Cert.ReferenceIdeal.Stages.Z (X0 m c) (X1 m c) := by
  show StableHlo.after (List.flatten [hostOps0]) (fun b => m (c, b)) (Proc.devRef .tc main_v17) = _
  simp only [hostOps0, List.flatten_cons, List.flatten_nil, List.append_nil]
  after_results_simp
  rfl

/-- One half of the positives, from the normalized matrix: row i against row 4096 + i, summed over the 256 features, over
    the temperature. -/
def posHalf (z : FVec Ideal S8192x256 .f32) : FVec Ideal S4096 .f32 :=
  Host.divf (F := Ideal)
    (Host.reduceAdd (F := Ideal) (mulf (extractStridedSlice S4096x256 ![0, 0] z slices_S8192x256_S4096x256_0_0) (extractStridedSlice S4096x256 ![4096, 0] z slices_S8192x256_S4096x256_4096_0))
      (constant (F := Ideal) S_ .f32 0x00000000#32) reducesTo_S4096x256_S4096_d1 h_S_)
    (broadcastInDim S4096 ![] bcast_S_S4096 (constant (F := Ideal) S_ .f32 0x3D8F5C29#32))

set_option maxHeartbeats 4000000 in
/-- The positives the kernel's host prefix computes: that half, twice. -/
theorem V_pos (c : Dev nD) : (V m c main_v24 : S8192.Idx → EReal)
    = concatenate S8192 0 [⟨S4096, posHalf (Cert.ReferenceIdeal.Stages.Z (X0 m c) (X1 m c))⟩, ⟨S4096, posHalf (Cert.ReferenceIdeal.Stages.Z (X0 m c) (X1 m c))⟩]
        concatenates_S4096_S4096_S8192_d0 := by
  show StableHlo.after (List.flatten [hostOps0]) (fun b => m (c, b)) (Proc.devRef .tc main_v24) = _
  simp only [hostOps0, List.flatten_cons, List.flatten_nil, List.append_nil]
  after_results_simp
  rfl

end Cert.Bridge

end
-- ==== Proof.Bridge.Equal.lean ====
/-
  The two programs compute one number.  With Z the common normalized matrix:
  · row sums: the kernel's Σ_m [n ≠ m] exp (⟨Z n, Z m⟩ κ) is the reference's 0 + Σ_m exp (⟨Z n, Z m⟩ / t)(1 − [n = m]),
    because dividing by t = 9395241 / 2^27 is multiplying by κ = 2^27 / 9395241;
  · positives: the kernel's (0 + ⟨Z i, Z (4096+i)⟩) κ, laid out twice, is the reference's ⟨Z i, Z (4096+i)⟩ κ in the first half
    and ⟨Z (4096+i), Z i⟩ κ in the second, products of extended reals commuting;
  · and both apply the same mean of log (row sum) − positive.
-/
import proofs.«158876_j63264868270602_2_alg».proof.Proof.Bridge.Kernel
import Idealize.ShloMosaic.Lib.Pipeline.Value

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Rows
open Cert.Consts (κv)
open Cert.ReferenceIdeal.Stages (Z lo hi)

variable (m : (ℓ : Loc nD τ sig) → Buf (Elt Ideal) ℓ)

/-- The kernel's masked exponentials are the reference's. -/
theorem expOff_eq (c : Dev nD) (n x : Fin 8192) :
    Rows.expOff m c n x = Cert.ReferenceIdeal.Stages.expOff (X0 m c) (X1 m c) n x := by
  unfold Rows.expOff Rows.gram Cert.ReferenceIdeal.Stages.expOff Cert.ReferenceIdeal.Stages.gram
  rw [show (Zk m c : S8192x256.Idx → EReal) = Z (X0 m c) (X1 m c) from V_rows m c]

/-- The kernel's row-sum vector at row n. -/
theorem negVec_apply (c : Dev nD) (n : Fin 8192) : (negVec m c (ix1 n) : EReal) = ∑ x : Fin 8192, Rows.expOff m c n x := by
  unfold negVec
  exact (shapeCast_apply (s := S8192x1) (t := S8192) (rowSums m c : S8192x1.Idx → EReal) shapeCasts_S8192x1_S8192 (ix1 n) (ix2 n (0 : Fin 1)) (by
    show (S8192x1.rowMajor (ix2 n (0 : Fin 1))).val = (S8192.rowMajor (ix1 n)).val
    rw [Shape.rowMajor_val_two, Shape.rowMajor_val_one]; show n.val * 1 + 0 = n.val; omega)).trans (rowSums_apply m c n (0 : Fin 1))

/-- THE ROW SUMS AGREE. -/
theorem neg_eq (c : Dev nD) : negVec m c = Cert.ReferenceIdeal.Read.val_main_v27 (F := Ideal) (X0 m c) (X1 m c) := by
  funext i
  obtain ⟨n, rfl⟩ : ∃ n : Fin 8192, i = ix1 n := ⟨i 0, eq_ix1 i⟩
  rw [Cert.ReferenceIdeal.Stages.negSum_apply, zero_add]
  exact (negVec_apply m c n).trans (Finset.sum_congr rfl fun x _ => expOff_eq m c n x)

/-- Half of the kernel's positives at entry i: (0 + ⟨Z i, Z (4096+i)⟩) over the temperature. -/
theorem posHalf_apply (z : FVec Ideal S8192x256 .f32) (i : Fin 4096) :
    posHalf z (ix1 i) = (0 + ∑ k : Fin 256, z (ix2 (lo i) k) * z (ix2 (hi i) k)) * κv := by
  have hi' := i.isLt
  unfold posHalf
  show FloatOps.hostDivf (F := Ideal) _ _ = _
  rw [broadcastInDim_apply _ bcast_S_S4096 (constant (F := Ideal) S_ .f32 0x3D8F5C29#32) (ix1 i) (fun a => a.elim0) (fun a => a.elim0)]
  show FloatOps.hostDivf (F := Ideal) _ (FloatOps.ofBits (F := Ideal) .f32 0x3D8F5C29#32) = _
  rw [Cert.Consts.host_div_temperature]
  congr 1
  simp only [Host.reduceAdd, Ideal.hostReduceAdd_def]
  rw [Ideal.hostReduceAdd_single reducesTo_S4096x256_S4096_d1 (by decide)]
  refine congrArg₂ (· + ·) Ideal.ofBits_zero_f32 (Finset.sum_congr rfl fun k _ => ?_)
  show (extractStridedSlice S4096x256 ![0, 0] z slices_S8192x256_S4096x256_0_0 _) * (extractStridedSlice S4096x256 ![4096, 0] z slices_S8192x256_S4096x256_4096_0 _) = _
  rw [extractStridedSlice_apply ![0, 0] z slices_S8192x256_S4096x256_0_0 _ (ix2 (lo i) k) (fun a => by match a with | ⟨0, _⟩ => show i.val = 0 + i.val; omega | ⟨1, _⟩ => show k.val = 0 + k.val; omega),
    extractStridedSlice_apply ![4096, 0] z slices_S8192x256_S4096x256_4096_0 _ (ix2 (hi i) k) (fun a => by match a with | ⟨0, _⟩ => show 4096 + i.val = 4096 + i.val; rfl | ⟨1, _⟩ => show k.val = 0 + k.val; omega)]

/-- THE POSITIVES AGREE. -/
theorem pos_eq (c : Dev nD) : (V m c main_v24 : S8192.Idx → EReal) = Cert.ReferenceIdeal.Read.val_main_v16 (F := Ideal) (X0 m c) (X1 m c) := by
  rw [V_pos]
  funext j
  obtain ⟨n, rfl⟩ : ∃ n : Fin 8192, j = ix1 n := ⟨j 0, eq_ix1 j⟩
  have hn := n.isLt
  by_cases h : n.val < 4096
  · obtain ⟨i, rfl⟩ : ∃ i : Fin 4096, n = lo i := ⟨⟨n.val, h⟩, Fin.ext rfl⟩
    rw [Cert.ReferenceIdeal.Stages.pos_lo]
    refine (concatenate_pair_apply_left (t := S8192) (s₁ := S4096) (s₂ := S4096) (0 : Fin 1) _ _ concatenates_S4096_S4096_S8192_d0 (ix1 (lo i)) rfl (ix1 i)
      (fun b => by match b with | ⟨0, _⟩ => rfl)).trans ?_
    rw [posHalf_apply, zero_add]
    rfl
  · have h' : n.val - 4096 < 4096 := by omega
    obtain ⟨i, rfl⟩ : ∃ i : Fin 4096, n = hi i := ⟨⟨n.val - 4096, h'⟩, Fin.ext (by show n.val = 4096 + (n.val - 4096); omega)⟩
    rw [Cert.ReferenceIdeal.Stages.pos_hi]
    refine (concatenate_pair_apply_right (t := S8192) (s₁ := S4096) (s₂ := S4096) (0 : Fin 1) _ _ concatenates_S4096_S4096_S8192_d0 (ix1 (hi i)) rfl rfl (ix1 i)
      (fun b hb => by match b with | ⟨0, _⟩ => exact absurd rfl hb) (by show i.val + 4096 = 4096 + i.val; omega)).trans ?_
    rw [posHalf_apply, zero_add]
    unfold Cert.ReferenceIdeal.Stages.gram
    exact congrArg (· * κv) (Finset.sum_congr rfl fun k _ => mul_comm _ _)

/-- THE RESULTS AGREE: the kernel's loss is the reference's stage for its result, at the same arguments. -/
theorem result_eq (c : Dev nD) :
    Vend m c (Proc.devRef .tc main_v30) = Cert.ReferenceIdeal.Read.val_main_v31 (F := Ideal) (X0 m c) (X1 m c) := by
  rw [Vend_result, neg_eq, pos_eq]
  rfl

theorem v30_rest : main_v30 ∈ Pipeline.restRefs sig spec0 := by decide

end Cert.Bridge

end
-- ==== Proof.lean ====
/-
  A contrastive loss over 8192 rows of 256 features (two views of 4096 samples, stacked): every row is normalized, each
  row's similarities to all other rows are exponentiated over a temperature and summed, and the loss is the mean over
  the rows of log (that sum) minus the row's similarity to its partner view.

  The kernel never stores the 8192 × 8192 similarity matrix: a 4 × 8 grid streams 2048 × 1024 tiles of it, masks the
  diagonal, folds each tile to 128 lanes into an accumulator, and at a row tile's last column tile sums the lanes.  The
  reference forms the whole matrix, multiplies by 1 minus the identity, and sums rows.  Over the extended reals the two
  orders of summation agree, the masks agree entry by entry, and the kernel's multiplication by the reciprocal of the
  temperature — named as the exact reciprocal 2^27 / 9395241 of the reference's divisor — is the reference's division.

  The three frames: each program runs to its end, faults nowhere, and writes neither argument.  The kernel's two input
  windows read one array; each holds half of its share through the region (Proof/KI/Shared, Proof/K/Shared).
-/
import proofs.«158876_j63264868270602_2_alg».proof.Defs
import proofs.«158876_j63264868270602_2_alg».proof.Proof.Gen.Kernel
import proofs.«158876_j63264868270602_2_alg».proof.Proof.Gen.KernelIdeal
import proofs.«158876_j63264868270602_2_alg».proof.Proof.Gen.ReferenceIdeal
import proofs.«158876_j63264868270602_2_alg».proof.Proof.Gen.Pre_finite_inputs
import proofs.«158876_j63264868270602_2_alg».proof.Proof.Easy
import proofs.«158876_j63264868270602_2_alg».proof.Proof.K.Frame
import proofs.«158876_j63264868270602_2_alg».proof.Proof.KI.Frame
import proofs.«158876_j63264868270602_2_alg».proof.Proof.Bridge.Equal
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Rows.frame (F := Bits) m ρ

/-- So does its idealization. -/
theorem frame_ki : Cert.frame_KernelIdeal := fun m ρ _ => Cert.KernelIdeal.Rows.frame (F := Ideal) m ρ

/-- THE TWO LOSSES ARE EQUAL over the extended reals, from memories that agree on the two arguments. -/
theorem algebraic : Cert.algebraic_KernelIdeal_ReferenceIdeal := by
  intro m ρ m' ρ' _ hagree
  refine ⟨fun c => Cert.ReferenceIdeal.Read.val_main_v31 (F := Ideal) (Cert.Bridge.X0 m c) (Cert.Bridge.X1 m c), ?_, ?_⟩
  · exact (θ_run Cert.KernelIdeal.defs _ _).mono
      (fun r h c => ⟨((h c).2 _ Cert.Bridge.v30_rest).trans (Cert.Bridge.result_eq m c),
        ((h c).2 _ Cert.KernelIdeal.Rows.arg0_rest).trans (Cert.KernelIdeal.Rows.Vend_arg0 m c),
        ((h c).2 _ Cert.KernelIdeal.Rows.arg1_rest).trans (Cert.KernelIdeal.Rows.Vend_arg1 m c)⟩)
      (Cert.KernelIdeal.Rows.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, Cert.Proof.Easy.frame_ri, Cert.Proof.Easy.preserves, algebraic⟩

end Cert.Proof

end
